-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S16384x128 : Shape := ⟨2, ![16384, 128]⟩
abbrev S2x128x128 : Shape := ⟨3, ![2, 128, 128]⟩
abbrev S2x128 : Shape := ⟨2, ![2, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_

variable [Facts]

def fn_part1 {F : FTy → Type} [FloatOps F] (main_v13 : IVec S_ 1) (main_v16 : IVec S2x128 1) : IVec S_ 1 :=
  let main_c_5 : IVec S_ 1 := constantI S_ 1 1#1
  let main_v17 : IVec S_ 1 := (fun x v => Host.reduce IntOp.andi x v reducesTo_S2x128_S_d0_1 h_S_) main_v16 main_c_5
  let main_v18 : IVec S_ 1 := andi main_v13 main_v17
  main_v18

def fn {F : FTy → Type} [FloatOps F] (main_arg0 : FVec F S8192x128 .f32) (main_arg1 : FVec F S16384x128 .f32) (main_arg2 : FVec F S2x128x128 .f32) (main_arg3 : FVec F S2x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S2x128x128 .f32 := Host.absf main_arg2
  let main_cst_2 : FVec F S_ .f32 := constant S_ .f32 0x7F800000#32
  let main_v10 : FVec F S2x128x128 .f32 := broadcastInDim S2x128x128 ![] bcast_S_S2x128x128 main_cst_2
  let main_v11 : IVec S2x128x128 1 := cmpf .olt main_v9 main_v10
  let main_c_3 : IVec S_ 1 := constantI S_ 1 1#1
  let main_v12 : IVec S_ 1 := (fun x v => Host.reduce IntOp.andi x v reducesTo_S2x128x128_S_d0_1_2 h_S_) main_v11 main_c_3
  let main_v13 : IVec S_ 1 := andi main_v8 main_v12
  let main_v14 : FVec F S2x128 .f32 := Host.absf main_arg3
  let main_cst_4 : FVec F S_ .f32 := constant S_ .f32 0x7F800000#32
  let main_v15 : FVec F S2x128 .f32 := broadcastInDim S2x128 ![] bcast_S_S2x128 main_cst_4
  let main_v16 : IVec S2x128 1 := cmpf .olt main_v14 main_v15
  fn_part1 (F := F) main_v13 main_v16
-- ==== Kernel.lean ====
abbrev S8192x128 : Shape := ⟨2, ![8192, 128]⟩
abbrev S16384x128 : Shape := ⟨2, ![16384, 128]⟩
abbrev S2x128x128 : Shape := ⟨3, ![2, 128, 128]⟩
abbrev S2x128 : Shape := ⟨2, ![2, 128]⟩
abbrev S2x1x128 : Shape := ⟨3, ![2, 1, 128]⟩
abbrev S2048x128 : Shape := ⟨2, ![2048, 128]⟩
abbrev S1024x128 : Shape := ⟨2, ![1024, 128]⟩
abbrev S1x128x128 : Shape := ⟨3, ![1, 128, 128]⟩
abbrev S1x1x128 : Shape := ⟨3, ![1, 1, 128]⟩
abbrev S128x1024 : Shape := ⟨2, ![128, 1024]⟩
abbrev S2048x1024 : Shape := ⟨2, ![2048, 1024]⟩
abbrev S2048 : Shape := ⟨1, ![2048]⟩
abbrev S2048x1 : Shape := ⟨2, ![2048, 1]⟩
abbrev S128x128 : Shape := ⟨2, ![128, 128]⟩
abbrev S1x128 : Shape := ⟨2, ![1, 128]⟩

abbrev nBuf : Space → Nat
  | .hbm => 6
  | .vmem => 12
  | .smem => 0
  | _ => 0

abbrev bufTy : (tb : Table) → Fin (tcTables nBuf tb) → BufTy
  | .hbm, ⟨0, _⟩ => ⟨S8192x128, .f32⟩
  | .hbm, ⟨1, _⟩ => ⟨S16384x128, .f32⟩
  | .hbm, ⟨2, _⟩ => ⟨S2x128x128, .f32⟩
  | .hbm, ⟨3, _⟩ => ⟨S2x128, .f32⟩
  | .hbm, ⟨4, _⟩ => ⟨S2x1x128, .f32⟩
  | .hbm, ⟨5, _⟩ => ⟨S8192x128, .f32⟩
  | .local _ .vmem, ⟨0, _⟩ => ⟨S2048x128, .f32⟩
  | .local _ .vmem, ⟨1, _⟩ => ⟨S2048x128, .f32⟩
  | .local _ .vmem, ⟨2, _⟩ => ⟨S1024x128, .f32⟩
  | .local _ .vmem, ⟨3, _⟩ => ⟨S1024x128, .f32⟩
  | .local _ .vmem, ⟨4, _⟩ => ⟨S1x128x128, .f32⟩
  | .local _ .vmem, ⟨5, _⟩ => ⟨S1x128x128, .f32⟩
  | .local _ .vmem, ⟨6, _⟩ => ⟨S1x1x128, .f32⟩
  | .local _ .vmem, ⟨7, _⟩ => ⟨S1x1x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 16], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond3 (i : grid0.Coords) : BitVec 1 :=
  let arg2 : BitVec 32 := BitVec.ofNat 32 (i 2).val
  let c15_i32 : BitVec 32 := 15#32
  let v32 : BitVec 1 := Scalar.cmpi .eq arg2 c15_i32
  let v33 : BitVec 32 := Scalar.extui v32
  let c0_i32_17 : BitVec 32 := 0#32
  let v34 : BitVec 1 := Scalar.cmpi .ne v33 c0_i32_17
  v34

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

class Facts₀ : Prop where
  shapeCasts_S2x128_S2x1x128 : S2x128.ShapeCasts S2x1x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  transposes_S1024x128_p1_0_S128x1024 : S1024x128.Transposes [1, 0] S128x1024
  reduces_S2048x1024_S2048 : S2048x1024.Reduces [1] S2048
  shapeCasts_S2048_S2048x1 : S2048.ShapeCasts S2048x1
  shapeCasts_S2048x1_S2048x1 : S2048x1.ShapeCasts S2048x1
  broadcasts_S2048x1_S2048x128 : S2048x1.Broadcasts S2048x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  transposes_S128x128_p1_0_S128x128 : S128x128.Transposes [1, 0] S128x128
  broadcasts_S1x128_S2048x128 : S1x128.Broadcasts S2048x128
  dot_S2048x128_S128x1024_S2048x1024_1_0_0_1_n_n_wf : DotDims.WF S2048x128 S128x1024 S2048x1024 [1] [0] [0] [1] [] []
  dot_S2048x1024_S1024x128_S2048x128_1_0_0_1_n_n_wf : DotDims.WF S2048x1024 S1024x128 S2048x128 [1] [0] [0] [1] [] []
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S8192x128.size a
  hwx0_0 : ∀ i : grid0.Coords, EltTy.bits .f32 = 32 ∨ (Rect.block (s := S8192x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S16384x128.size a
  hwx0_1 : ∀ i : grid0.Coords, EltTy.bits .f32 = 32 ∨ (Rect.block (s := S16384x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S2x128x128.size a
  hwx0_2 : ∀ i : grid0.Coords, EltTy.bits .f32 = 32 ∨ (Rect.block (s := S2x128x128) S1x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S2x1x128.size a
  hwx0_3 : ∀ i : grid0.Coords, EltTy.bits .f32 = 32 ∨ (Rect.block (s := S2x1x128) S1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S8192x128.size a
  hwx0_4 : ∀ i : grid0.Coords, EltTy.bits .f32 = 32 ∨ (Rect.block (s := S8192x128) S2048x128.size (cc0_transform_4 i) (hinb0_4 i)).WholeWords (EltTy.packing .f32)

variable [Facts₀]

def dot_S2048x128_S128x1024_S2048x1024_1_0_0_1_n_n : DotDims S2048x128 S128x1024 S2048x1024 where
  lhsContracting := [1]
  rhsContracting := [0]
  lhsNonContracting := [0]
  rhsNonContracting := [1]
  lhsBatch := []
  rhsBatch := []
  wf := dot_S2048x128_S128x1024_S2048x1024_1_0_0_1_n_n_wf
def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2048x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond1 i == 1#1) && !(k0_cond3 i == 1#1) | ⟨_ + 5, h⟩ => absurd h (Nat.not_lt.2 (Nat.le_add_left _ _))

class Facts : Prop extends Facts₀ where

variable [Facts]
-- ==== ReferenceIdeal.lean ====
abbrev S8192x128 : Shape := ⟨2, ![8192, 128]⟩
abbrev S16384x128 : Shape := ⟨2, ![16384, 128]⟩
abbrev S2x128x128 : Shape := ⟨3, ![2, 128, 128]⟩
abbrev S2x128 : Shape := ⟨2, ![2, 128]⟩
abbrev S128x16384 : Shape := ⟨2, ![128, 16384]⟩
abbrev S8192x16384 : Shape := ⟨2, ![8192, 16384]⟩
abbrev S_ : Shape := ⟨0, ![]⟩
abbrev S8192 : Shape := ⟨1, ![8192]⟩
abbrev S8192x1 : Shape := ⟨2, ![8192, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 60
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S16384x128, .f32⟩
  | .hbm, ⟨2, _⟩ => ⟨S2x128x128, .f32⟩
  | .hbm, ⟨3, _⟩ => ⟨S2x128, .f32⟩
  | .hbm, ⟨4, _⟩ => ⟨S128x16384, .f32⟩
  | .hbm, ⟨5, _⟩ => ⟨S8192x16384, .f32⟩
  | .hbm, ⟨6, _⟩ => ⟨S8192x16384, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x16384, .f32⟩
  | .hbm, ⟨14, _⟩ => ⟨S8192x16384, .f32⟩
  | .hbm, ⟨15, _⟩ => ⟨S8192x128, .f32⟩
  | .hbm, ⟨16, _⟩ => ⟨S_, .f32⟩
  | .hbm, ⟨17, _⟩ => ⟨S8192x128, .f32⟩
  | .hbm, ⟨18, _⟩ => ⟨S8192x128, .f32⟩
  | .hbm, ⟨19, _⟩ => ⟨S1x128x128, .f32⟩
  | .hbm, ⟨20, _⟩ => ⟨S128x128, .f32⟩
  | .hbm, ⟨21, _⟩ => ⟨S128x128, .f32⟩
  | .hbm, ⟨22, _⟩ => ⟨S8192x128, .f32⟩
  | .hbm, ⟨23, _⟩ => ⟨S8192x128, .f32⟩
  | .hbm, ⟨24, _⟩ => ⟨S1x128, .f32⟩
  | .hbm, ⟨25, _⟩ => ⟨S128, .f32⟩
  | .hbm, ⟨26, _⟩ => ⟨S1x128, .f32⟩
  | .hbm, ⟨27, _⟩ => ⟨S8192x128, .f32⟩
  | .hbm, ⟨28, _⟩ => ⟨S8192x128, .f32⟩
  | .hbm, ⟨29, _⟩ => ⟨S_, .f32⟩
  | .hbm, ⟨30, _⟩ => ⟨S8192x128, .f32⟩
  | .hbm, ⟨31, _⟩ => ⟨S8192x128, .f32⟩
  | .hbm, ⟨32, _⟩ => ⟨S128x16384, .f32⟩
  | .hbm, ⟨33, _⟩ => ⟨S8192x16384, .f32⟩
  | .hbm, ⟨34, _⟩ => ⟨S8192x16384, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x16384, .f32⟩
  | .hbm, ⟨42, _⟩ => ⟨S8192x16384, .f32⟩
  | .hbm, ⟨43, _⟩ => ⟨S8192x128, .f32⟩
  | .hbm, ⟨44, _⟩ => ⟨S_, .f32⟩
  | .hbm, ⟨45, _⟩ => ⟨S8192x128, .f32⟩
  | .hbm, ⟨46, _⟩ => ⟨S8192x128, .f32⟩
  | .hbm, ⟨47, _⟩ => ⟨S1x128x128, .f32⟩
  | .hbm, ⟨48, _⟩ => ⟨S128x128, .f32⟩
  | .hbm, ⟨49, _⟩ => ⟨S128x128, .f32⟩
  | .hbm, ⟨50, _⟩ => ⟨S8192x128, .f32⟩
  | .hbm, ⟨51, _⟩ => ⟨S8192x128, .f32⟩
  | .hbm, ⟨52, _⟩ => ⟨S1x128, .f32⟩
  | .hbm, ⟨53, _⟩ => ⟨S128, .f32⟩
  | .hbm, ⟨54, _⟩ => ⟨S1x128, .f32⟩
  | .hbm, ⟨55, _⟩ => ⟨S8192x128, .f32⟩
  | .hbm, ⟨56, _⟩ => ⟨S8192x128, .f32⟩
  | .hbm, ⟨57, _⟩ => ⟨S_, .f32⟩
  | .hbm, ⟨58, _⟩ => ⟨S8192x128, .f32⟩
  | .hbm, ⟨59, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_cst : Ref sig .tc := ⟨.hbm, 29, rfl⟩
abbrev main_call0_v0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_call1_cst : Ref sig .tc := ⟨.hbm, 57, rfl⟩
abbrev main_call1_v0 : Ref sig .tc := ⟨.hbm, 58, rfl⟩
abbrev main_v45 : Ref sig .tc := ⟨.hbm, 59, rfl⟩

abbrev nD : Nat := 1
abbrev τ : Topo := Topo.v7x

variable {F : FTy → Type} [FloatOps F]

class Facts₀ : Prop where
  transposes_S16384x128_S128x16384_1_0 : S16384x128.Transposes [1, 0] S128x16384
  reducesTo_S8192x16384_S8192_d1 : S8192x16384.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x16384_0_1 : S8192x1.BroadcastsInDim S8192x16384 (![0, 1] : Fin 2 → Fin S8192x16384.rank)
  bcast_S_S8192x128 : S_.BroadcastsInDim S8192x128 (![] : Fin 0 → Fin S8192x128.rank)
  slices_S2x128x128_S1x128x128_0_0_0 : S2x128x128.Slices ![0, 0, 0] S1x128x128
  shapeCasts_S1x128x128_S128x128 : S1x128x128.ShapeCasts S128x128
  transposes_S128x128_S128x128_1_0 : S128x128.Transposes [1, 0] S128x128
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  slices_S2x128x128_S1x128x128_1_0_0 : S2x128x128.Slices ![1, 0, 0] S1x128x128
  slices_S2x128_S1x128_1_0 : S2x128.Slices ![1, 0] S1x128
  dot_S8192x128_S128x16384_S8192x16384_1_0_0_1_n_n_wf : DotDims.WF S8192x128 S128x16384 S8192x16384 [1] [0] [0] [1] [] []
  dot_S8192x16384_S16384x128_S8192x128_1_0_0_1_n_n_wf : DotDims.WF S8192x16384 S16384x128 S8192x128 [1] [0] [0] [1] [] []
  dot_S8192x128_S128x128_S8192x128_1_0_0_1_n_n_wf : DotDims.WF S8192x128 S128x128 S8192x128 [1] [0] [0] [1] [] []

variable [Facts₀]

def dot_S8192x128_S128x16384_S8192x16384_1_0_0_1_n_n : DotDims S8192x128 S128x16384 S8192x16384 where
  lhsContracting := [1]
  rhsContracting := [0]
  lhsNonContracting := [0]
  rhsNonContracting := [1]
  lhsBatch := []
  rhsBatch := []
  wf := dot_S8192x128_S128x16384_S8192x16384_1_0_0_1_n_n_wf
def dot_S8192x16384_S16384x128_S8192x128_1_0_0_1_n_n : DotDims S8192x16384 S16384x128 S8192x128 where
  lhsContracting := [1]
  rhsContracting := [0]
  lhsNonContracting := [0]
  rhsNonContracting := [1]
  lhsBatch := []
  rhsBatch := []
  wf := dot_S8192x16384_S16384x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

class Facts : Prop extends Facts₀ where

variable [Facts]
-- ==== Proof.Kernel.Cases.lean ====
/-
  The grid of the one pallas_call is 4 × 2 × 16: point t = 32·ui + 16·l + si (user tile, layer, key tile).
  The body branches on three conditions of the point: "first" (l = 0 and si = 0: the user tile is copied into the
  resident output block), "reset" (si = 0: both running sums are zeroed) and "last" (si = 15: the layer is
  finished and the output block replaced). Here they are decided over the grid in closed form, together with
  where the output window is idle and where it is written back, the names of the staging and scratch memrefs,
  and the region invariant opened into its two scratch buffers.
-/
import proofs.«111034_j90718299226373_2_alg».proof.Proof.Gen.Kernel.Frame
import proofs.«111034_j90718299226373_2_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions -/

/-- l = 0 and si = 0. -/
abbrev isFirst (i : grid0.Coords) : Prop := k0_cond1 i = 1#1
/-- si = 0. -/
abbrev isReset (i : grid0.Coords) : Prop :=
  (Scalar.cmpi .ne (Scalar.extui (Scalar.cmpi .eq (BitVec.ofNat 32 (i 2).val) 0#32)) 0#32) = 1#1
/-- si = 15. -/
abbrev isLast (i : grid0.Coords) : Prop := k0_cond3 i = 1#1

theorem isFirst_iff : ∀ t : Fin cfg0.N, isFirst (grid0.coords t) ↔ t.val % 32 = 0 :=
  (by decide +kernel : ∀ t : Fin grid0.N, isFirst (grid0.coords t) ↔ t.val % 32 = 0)
theorem isReset_iff : ∀ t : Fin cfg0.N, isReset (grid0.coords t) ↔ t.val % 16 = 0 :=
  (by decide +kernel : ∀ t : Fin grid0.N, isReset (grid0.coords t) ↔ t.val % 16 = 0)
theorem isLast_iff : ∀ t : Fin cfg0.N, isLast (grid0.coords t) ↔ t.val % 16 = 15 :=
  (by decide +kernel : ∀ t : Fin grid0.N, isLast (grid0.coords t) ↔ t.val % 16 = 15)

/-! ## Where the windows are idle, and where the output is written back -/

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
/-- The output block is stored at the first point of a user tile and at the last point of a layer, -/
theorem live4_first : ∀ t : Fin cfg0.N, isFirst (grid0.coords t) → cfg0.idle 4 (grid0.coords t) = false := by decide +kernel
theorem live4_last : ∀ t : Fin cfg0.N, isLast (grid0.coords t) → cfg0.idle 4 (grid0.coords t) = false := by decide +kernel
/-- and nowhere else; -/
theorem idle4 : ∀ t : Fin cfg0.N, ¬isFirst (grid0.coords t) → ¬isLast (grid0.coords t) → cfg0.idle 4 (grid0.coords t) = true := by decide +kernel
/-- it is written back only at the last point of a user tile, which is a last point of a layer. -/
theorem noFlush4 : ∀ t : Fin cfg0.N, ¬isLast (grid0.coords t) → (cfg0.win 4).flush t = false := by decide +kernel
theorem noFlush4_of : ∀ t : Fin cfg0.N, t.val % 32 ≠ 31 → (cfg0.win 4).flush t = false := by decide +kernel
theorem noClip4 : ∀ (i : cfg0.grid.Coords) a, (cfg0.win 4).clip i a = none := fun _ _ => rfl

/-! ## The memrefs the body is called with -/

abbrev VO4 : View sig .tc .vmem S2048x128 .f32 := (Memref.whole cc0_stg4_0 : Memref sig .tc .vmem S2048x128 .f32).view
abbrev ms0 (t : Fin cfg0.N) : Memref sig .tc .vmem S2048x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x128 .f32 := win0_4.stage (cfg0.slots t 4)
abbrev hs4 (t : Fin cfg0.N) : (ms4 t).IsWhole := hstage0_4 ((cfg0.slots t 4).cast nbuf0_4)
/-- The running sum of |scores| (kept lane-broadcast) and the running weighted sum: two scratch buffers. -/
abbrev scA : Memref sig .tc .vmem S2048x128 .f32 := Memref.whole cc0_scratch0
abbrev scM : Memref sig .tc .vmem S2048x128 .f32 := Memref.whole cc0_scratch1
abbrev VA : View sig .tc .vmem S2048x128 .f32 := scA.view
abbrev VM : View sig .tc .vmem S2048x128 .f32 := scM.view

/-- The region invariant with the two scratch buffers as memrefs owned at some contents. -/
theorem PhiA_eq (c : Dev nD) :
    (Pipeline.ΦA spec0 c : sProp 𝕄)
      = iprop(iprop((∃ d, owns (c : Thread nD τ) scA fullShare d) ∗ (∃ d, owns (c : Thread nD τ) scM fullShare d)) ∗ (∃ r, prngReg c r)) := by
  unfold Pipeline.ΦA; rw [scopedRest0_eq]; simp only [scA, scM, owns_whole]; try rfl

end Cert.Kernel.Body

end
-- ==== Proof.Kernel.RunFirst.lean ====
/-
  The body at the FIRST point of a user tile (l = 0, si = 0): the user tile is copied into the output block, both
  running sums are zeroed, and the first key tile is accumulated into them. Whatever the output block and the two
  scratch buffers held before is overwritten: each ends with the pieces the stores wrote.
-/
import proofs.«111034_j90718299226373_2_alg».proof.Proof.Kernel.Cases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores' pieces in the output block and in the two scratch buffers, with the body's triple on whole memrefs. -/
noncomputable def runFirst (c : Dev nD) (i : grid0.Coords) (arg3 : Memref sig .tc .vmem S2048x128 .f32) (harg3 : arg3.IsWhole) (arg4 : Memref sig .tc .vmem S1024x128 .f32) (harg4 : arg4.IsWhole) (arg5 : Memref sig .tc .vmem S1x128x128 .f32) (harg5 : arg5.IsWhole) (arg6 : Memref sig .tc .vmem S1x1x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (hc0 : isFirst i) (hc1 : isReset i) (hc2 : ¬isLast i)
    (x0 : Vec F S2048x128 .f32) (x1 : Vec F S1024x128 .f32) (x2 : Vec F S1x128x128 .f32) (x3 : Vec F S1x1x128 .f32) :
    Σ' (L4 : List (View.Piece (Elt F) S2048x128 .f32)) (LA : List (View.Piece (Elt F) S2048x128 .f32)), { LM : List (View.Piece (Elt F) S2048x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LA) ∗ (∃ f, arg9.view.loc (c : Thread nD τ) ↦[arg9.view.set]{fullShare} arg9.view.writes (Elt F) f LM)) -∗ K ⟨⟩))
          ⊢ wp frame (wpE (defs₀ (F := F)) Variants.none c none) E (cc0__gnn_kernel i arg3 harg3 arg4 harg4 arg5 harg5 arg6 harg6 arg7 harg7 arg8 harg8 arg9 harg9) K } := by
  refine ⟨?_, ?_, ?_, fun E K => ?run⟩
  case run =>
    simp only [cc0__gnn_kernel_eq_skeleton]; unfold cc0__gnn_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%dA, %fA, -, HA⟩, ⟨%dM, %fM, -, HM⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HA]; · iexists _; iexact HA
    iexists _; iexact HM

end Cert.Kernel.Body

end
-- ==== Proof.Kernel.RunReset.lean ====
/-
  The body at the first key tile of the SECOND layer (l = 1, si = 0): the output block, which holds the first
  layer's result, is read and left as it is; both running sums are zeroed and the first key tile accumulated.
-/
import proofs.«111034_j90718299226373_2_alg».proof.Proof.Kernel.RunFirst

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runReset (c : Dev nD) (i : grid0.Coords) (arg3 : Memref sig .tc .vmem S2048x128 .f32) (harg3 : arg3.IsWhole) (arg4 : Memref sig .tc .vmem S1024x128 .f32) (harg4 : arg4.IsWhole) (arg5 : Memref sig .tc .vmem S1x128x128 .f32) (harg5 : arg5.IsWhole) (arg6 : Memref sig .tc .vmem S1x1x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (hc0 : ¬isFirst i) (hc1 : isReset i) (hc2 : ¬isLast i)
    (x0 : Vec F S2048x128 .f32) (x1 : Vec F S1024x128 .f32) (x2 : Vec F S1x128x128 .f32) (x3 : Vec F S1x1x128 .f32) (xo : Vec F S2048x128 .f32) :
    Σ' (LA : List (View.Piece (Elt F) S2048x128 .f32)), { LM : List (View.Piece (Elt F) S2048x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xo ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xo ∗ (∃ f, arg8.view.loc (c : Thread nD τ) ↦[arg8.view.set]{fullShare} arg8.view.writes (Elt F) f LA) ∗ (∃ f, arg9.view.loc (c : Thread nD τ) ↦[arg9.view.set]{fullShare} arg9.view.writes (Elt F) f LM)) -∗ K ⟨⟩))
          ⊢ wp frame (wpE (defs₀ (F := F)) Variants.none c none) E (cc0__gnn_kernel i arg3 harg3 arg4 harg4 arg5 harg5 arg6 harg6 arg7 harg7 arg8 harg8 arg9 harg9) K } := by
  refine ⟨?_, ?_, fun E K => ?run⟩
  case run =>
    simp only [cc0__gnn_kernel_eq_skeleton]; unfold cc0__gnn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%dA, %fA, -, HA⟩, ⟨%dM, %fM, -, HM⟩, Hk⟩
    obtain rfl := harg3.eq_unread hf0; obtain rfl := harg4.eq_unread hf1; obtain rfl := harg5.eq_unread hf2; obtain rfl := harg6.eq_unread hf3
    obtain rfl := harg7.eq_unread hf4
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HA]; · iexists _; iexact HA
    iexists _; iexact HM

end Cert.Kernel.Body

end
-- ==== Proof.Kernel.RunAccum.lean ====
/-
  The body at a MIDDLE key tile (0 < si < 15): the output block is read and left as it is; the key tile's
  contribution is added to both running sums, which are carried from the point before.
-/
import proofs.«111034_j90718299226373_2_alg».proof.Proof.Kernel.RunReset

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runAccum (c : Dev nD) (i : grid0.Coords) (arg3 : Memref sig .tc .vmem S2048x128 .f32) (harg3 : arg3.IsWhole) (arg4 : Memref sig .tc .vmem S1024x128 .f32) (harg4 : arg4.IsWhole) (arg5 : Memref sig .tc .vmem S1x128x128 .f32) (harg5 : arg5.IsWhole) (arg6 : Memref sig .tc .vmem S1x1x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (hc0 : ¬isFirst i) (hc1 : ¬isReset i) (hc2 : ¬isLast i)
    (x0 : Vec F S2048x128 .f32) (x1 : Vec F S1024x128 .f32) (x2 : Vec F S1x128x128 .f32) (x3 : Vec F S1x1x128 .f32) (xo xa xm : Vec F S2048x128 .f32) :
    Σ' (LA : List (View.Piece (Elt F) S2048x128 .f32)), { LM : List (View.Piece (Elt F) S2048x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xo ∗ owns (c : Thread nD τ) arg8 fullShare xa ∗ owns (c : Thread nD τ) arg9 fullShare xm
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xo ∗ (∃ f, arg8.view.loc (c : Thread nD τ) ↦[arg8.view.set]{fullShare} arg8.view.writes (Elt F) f LA) ∗ (∃ f, arg9.view.loc (c : Thread nD τ) ↦[arg9.view.set]{fullShare} arg9.view.writes (Elt F) f LM)) -∗ K ⟨⟩))
          ⊢ wp frame (wpE (defs₀ (F := F)) Variants.none c none) E (cc0__gnn_kernel i arg3 harg3 arg4 harg4 arg5 harg5 arg6 harg6 arg7 harg7 arg8 harg8 arg9 harg9) K } := by
  refine ⟨?_, ?_, fun E K => ?run⟩
  case run =>
    simp only [cc0__gnn_kernel_eq_skeleton]; unfold cc0__gnn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fA, %hfA, HA⟩, ⟨%fM, %hfM, HM⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hfA; obtain rfl := harg9.eq_unread hfM
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HA]; · iexists _; iexact HA
    iexists _; iexact HM

end Cert.Kernel.Body

end
-- ==== Proof.Kernel.RunFinal.lean ====
/-
  The body at the LAST key tile of a layer (si = 15): the last contribution is added to both running sums, then the
  layer is finished — the weighted sum divided by the clamped sum of |scores| and by the number of keys, the dense
  layer, the residual, the bias and the rectifier — and the output block replaced by the result.
-/
import proofs.«111034_j90718299226373_2_alg».proof.Proof.Kernel.RunAccum

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runFinal (c : Dev nD) (i : grid0.Coords) (arg3 : Memref sig .tc .vmem S2048x128 .f32) (harg3 : arg3.IsWhole) (arg4 : Memref sig .tc .vmem S1024x128 .f32) (harg4 : arg4.IsWhole) (arg5 : Memref sig .tc .vmem S1x128x128 .f32) (harg5 : arg5.IsWhole) (arg6 : Memref sig .tc .vmem S1x1x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (hc0 : ¬isFirst i) (hc1 : ¬isReset i) (hc2 : isLast i)
    (x0 : Vec F S2048x128 .f32) (x1 : Vec F S1024x128 .f32) (x2 : Vec F S1x128x128 .f32) (x3 : Vec F S1x1x128 .f32) (xo xa xm : Vec F S2048x128 .f32) :
    Σ' (L4 : List (View.Piece (Elt F) S2048x128 .f32)) (LA : List (View.Piece (Elt F) S2048x128 .f32)), { LM : List (View.Piece (Elt F) S2048x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xo ∗ owns (c : Thread nD τ) arg8 fullShare xa ∗ owns (c : Thread nD τ) arg9 fullShare xm
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LA) ∗ (∃ f, arg9.view.loc (c : Thread nD τ) ↦[arg9.view.set]{fullShare} arg9.view.writes (Elt F) f LM)) -∗ K ⟨⟩))
          ⊢ wp frame (wpE (defs₀ (F := F)) Variants.none c none) E (cc0__gnn_kernel i arg3 harg3 arg4 harg4 arg5 harg5 arg6 harg6 arg7 harg7 arg8 harg8 arg9 harg9) K } := by
  refine ⟨?_, ?_, ?_, fun E K => ?run⟩
  case run =>
    simp only [cc0__gnn_kernel_eq_skeleton]; unfold cc0__gnn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fA, %hfA, HA⟩, ⟨%fM, %hfM, HM⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hfA; obtain rfl := harg9.eq_unread hfM
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HA]; · iexists _; iexact HA
    iexists _; iexact HM

end Cert.Kernel.Body

end
-- ==== Proof.Kernel.Body.lean ====
/-
  What the resident output block and the two running sums hold after each grid point, by recursion on the point
  (a first point copies the user tile and restarts the sums; a layer's first key tile restarts the sums; a middle key
  tile adds to them; a layer's last key tile adds to them and replaces the output block by the finished layer), the
  pipeline's proof data over it, and the body obligation: at every point the body, run on the staging buffers the
  pipeline hands it and on the two scratch buffers, leaves exactly that.
-/
import proofs.«111034_j90718299226373_2_alg».proof.Proof.Kernel.RunFinal

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The four runs at a grid point, and what their pieces read back to -/

abbrev firstRun (c : Dev nD) (t : Fin cfg0.N) (h0 : t.val % 32 = 0) :=
  runFirst (F := F) c (grid0.coords t) (ms0 t) (hs0 t) (ms1 t) (hs1 t) (ms2 t) (hs2 t) (ms3 t) (hs3 t) (ms4 t) (hs4 t) scA (Memref.isWhole_whole _) scM (Memref.isWhole_whole _) ((isFirst_iff t).mpr h0) ((isReset_iff t).mpr (by omega)) (fun hl => by have := (isLast_iff t).mp hl; omega) (iblk m c 0 t) (iblk m c 1 t) (iblk m c 2 t) (iblk m c 3 t)
abbrev resetRun (c : Dev nD) (t : Fin cfg0.N) (h0 : ¬t.val % 32 = 0) (h1 : t.val % 16 = 0) (xo : Vec F S2048x128 .f32) :=
  runReset (F := F) c (grid0.coords t) (ms0 t) (hs0 t) (ms1 t) (hs1 t) (ms2 t) (hs2 t) (ms3 t) (hs3 t) (ms4 t) (hs4 t) scA (Memref.isWhole_whole _) scM (Memref.isWhole_whole _) (fun hf => h0 ((isFirst_iff t).mp hf)) ((isReset_iff t).mpr h1) (fun hl => by have := (isLast_iff t).mp hl; omega) (iblk m c 0 t) (iblk m c 1 t) (iblk m c 2 t) (iblk m c 3 t) xo
abbrev accumRun (c : Dev nD) (t : Fin cfg0.N) (h1 : ¬t.val % 16 = 0) (h2 : ¬t.val % 16 = 15) (xo xa xm : Vec F S2048x128 .f32) :=
  runAccum (F := F) c (grid0.coords t) (ms0 t) (hs0 t) (ms1 t) (hs1 t) (ms2 t) (hs2 t) (ms3 t) (hs3 t) (ms4 t) (hs4 t) scA (Memref.isWhole_whole _) scM (Memref.isWhole_whole _) (fun hf => by have := (isFirst_iff t).mp hf; omega) (fun hr => h1 ((isReset_iff t).mp hr)) (fun hl => h2 ((isLast_iff t).mp hl)) (iblk m c 0 t) (iblk m c 1 t) (iblk m c 2 t) (iblk m c 3 t) xo xa xm
abbrev finalRun (c : Dev nD) (t : Fin cfg0.N) (h2 : t.val % 16 = 15) (xo xa xm : Vec F S2048x128 .f32) :=
  runFinal (F := F) c (grid0.coords t) (ms0 t) (hs0 t) (ms1 t) (hs1 t) (ms2 t) (hs2 t) (ms3 t) (hs3 t) (ms4 t) (hs4 t) scA (Memref.isWhole_whole _) scM (Memref.isWhole_whole _) (fun hf => by have := (isFirst_iff t).mp hf; omega) (fun hr => by have := (isReset_iff t).mp hr; omega) ((isLast_iff t).mpr h2) (iblk m c 0 t) (iblk m c 1 t) (iblk m c 2 t) (iblk m c 3 t) xo xa xm

/-- Every store of the body writes a whole block, so each list of pieces covers its buffer. -/
theorem firstCov4 (c : Dev nD) (t : Fin cfg0.N) (h0 : t.val % 32 = 0) (y : S2048x128.Idx) : ∃ pc ∈ (firstRun m c t h0).1, y ∈ pc.1.set :=
  View.cover_of_tiledL (firstRun m c t h0).1 S2048x128.size (by sl_kernel_rfl) y
theorem firstCovA (c : Dev nD) (t : Fin cfg0.N) (h0 : t.val % 32 = 0) (y : S2048x128.Idx) : ∃ pc ∈ (firstRun m c t h0).2.1, y ∈ pc.1.set :=
  View.cover_of_tiledL (firstRun m c t h0).2.1 S2048x128.size (by sl_kernel_rfl) y
theorem firstCovM (c : Dev nD) (t : Fin cfg0.N) (h0 : t.val % 32 = 0) (y : S2048x128.Idx) : ∃ pc ∈ (firstRun m c t h0).2.2.1, y ∈ pc.1.set :=
  View.cover_of_tiledL (firstRun m c t h0).2.2.1 S2048x128.size (by sl_kernel_rfl) y
theorem resetCovA (c : Dev nD) (t : Fin cfg0.N) (h0 : ¬t.val % 32 = 0) (h1 : t.val % 16 = 0) (xo : Vec F S2048x128 .f32) (y : S2048x128.Idx) : ∃ pc ∈ (resetRun m c t h0 h1 xo).1, y ∈ pc.1.set :=
  View.cover_of_tiledL (resetRun m c t h0 h1 xo).1 S2048x128.size (by sl_kernel_rfl) y
theorem resetCovM (c : Dev nD) (t : Fin cfg0.N) (h0 : ¬t.val % 32 = 0) (h1 : t.val % 16 = 0) (xo : Vec F S2048x128 .f32) (y : S2048x128.Idx) : ∃ pc ∈ (resetRun m c t h0 h1 xo).2.1, y ∈ pc.1.set :=
  View.cover_of_tiledL (resetRun m c t h0 h1 xo).2.1 S2048x128.size (by sl_kernel_rfl) y
theorem accumCovA (c : Dev nD) (t : Fin cfg0.N) (h1 : ¬t.val % 16 = 0) (h2 : ¬t.val % 16 = 15) (xo xa xm : Vec F S2048x128 .f32) (y : S2048x128.Idx) : ∃ pc ∈ (accumRun m c t h1 h2 xo xa xm).1, y ∈ pc.1.set :=
  View.cover_of_tiledL (accumRun m c t h1 h2 xo xa xm).1 S2048x128.size (by sl_kernel_rfl) y
theorem accumCovM (c : Dev nD) (t : Fin cfg0.N) (h1 : ¬t.val % 16 = 0) (h2 : ¬t.val % 16 = 15) (xo xa xm : Vec F S2048x128 .f32) (y : S2048x128.Idx) : ∃ pc ∈ (accumRun m c t h1 h2 xo xa xm).2.1, y ∈ pc.1.set :=
  View.cover_of_tiledL (accumRun m c t h1 h2 xo xa xm).2.1 S2048x128.size (by sl_kernel_rfl) y
theorem finalCov4 (c : Dev nD) (t : Fin cfg0.N) (h2 : t.val % 16 = 15) (xo xa xm : Vec F S2048x128 .f32) (y : S2048x128.Idx) : ∃ pc ∈ (finalRun m c t h2 xo xa xm).1, y ∈ pc.1.set :=
  View.cover_of_tiledL (finalRun m c t h2 xo xa xm).1 S2048x128.size (by sl_kernel_rfl) y
theorem finalCovA (c : Dev nD) (t : Fin cfg0.N) (h2 : t.val % 16 = 15) (xo xa xm : Vec F S2048x128 .f32) (y : S2048x128.Idx) : ∃ pc ∈ (finalRun m c t h2 xo xa xm).2.1, y ∈ pc.1.set :=
  View.cover_of_tiledL (finalRun m c t h2 xo xa xm).2.1 S2048x128.size (by sl_kernel_rfl) y
theorem finalCovM (c : Dev nD) (t : Fin cfg0.N) (h2 : t.val % 16 = 15) (xo xa xm : Vec F S2048x128 .f32) (y : S2048x128.Idx) : ∃ pc ∈ (finalRun m c t h2 xo xa xm).2.2.1, y ∈ pc.1.set :=
  View.cover_of_tiledL (finalRun m c t h2 xo xa xm).2.2.1 S2048x128.size (by sl_kernel_rfl) y

/-- (output block, sum of |scores|, weighted sum) after a first point. -/
def firstOut (c : Dev nD) (t : Fin cfg0.N) (h0 : t.val % 32 = 0) : Vec F S2048x128 .f32 × Vec F S2048x128 .f32 × Vec F S2048x128 .f32 :=
  (VO4.read (Elt F) (VO4.writes (Elt F) VO4.junk (firstRun m c t h0).1),
   VA.read (Elt F) (VA.writes (Elt F) VA.junk (firstRun m c t h0).2.1),
   VM.read (Elt F) (VM.writes (Elt F) VM.junk (firstRun m c t h0).2.2.1))
/-- after the second layer's first key tile, the output block `xo` kept. -/
def resetOut (c : Dev nD) (t : Fin cfg0.N) (h0 : ¬t.val % 32 = 0) (h1 : t.val % 16 = 0) (xo : Vec F S2048x128 .f32) : Vec F S2048x128 .f32 × Vec F S2048x128 .f32 × Vec F S2048x128 .f32 :=
  (xo,
   VA.read (Elt F) (VA.writes (Elt F) VA.junk (resetRun m c t h0 h1 xo).1),
   VM.read (Elt F) (VM.writes (Elt F) VM.junk (resetRun m c t h0 h1 xo).2.1))
/-- after a middle key tile. -/
def accumOut (c : Dev nD) (t : Fin cfg0.N) (h1 : ¬t.val % 16 = 0) (h2 : ¬t.val % 16 = 15) (xo xa xm : Vec F S2048x128 .f32) : Vec F S2048x128 .f32 × Vec F S2048x128 .f32 × Vec F S2048x128 .f32 :=
  (xo,
   VA.read (Elt F) (VA.writes (Elt F) VA.junk (accumRun m c t h1 h2 xo xa xm).1),
   VM.read (Elt F) (VM.writes (Elt F) VM.junk (accumRun m c t h1 h2 xo xa xm).2.1))
/-- after a layer's last key tile. -/
def finalOut (c : Dev nD) (t : Fin cfg0.N) (h2 : t.val % 16 = 15) (xo xa xm : Vec F S2048x128 .f32) : Vec F S2048x128 .f32 × Vec F S2048x128 .f32 × Vec F S2048x128 .f32 :=
  (VO4.read (Elt F) (VO4.writes (Elt F) VO4.junk (finalRun m c t h2 xo xa xm).1),
   VA.read (Elt F) (VA.writes (Elt F) VA.junk (finalRun m c t h2 xo xa xm).2.1),
   VM.read (Elt F) (VM.writes (Elt F) VM.junk (finalRun m c t h2 xo xa xm).2.2.1))

/-! ## Point by point -/

/-- What the output block and the two running sums hold after the body at position `n`. -/
def outsAt (c : Dev nD) : (n : ℕ) → n < cfg0.N → Vec F S2048x128 .f32 × Vec F S2048x128 .f32 × Vec F S2048x128 .f32
  | 0, hn => firstOut m c ⟨0, hn⟩ (Nat.zero_mod _)
  | n + 1, hn =>
    if h0 : (n + 1) % 32 = 0 then firstOut m c ⟨n + 1, hn⟩ h0
    else if h1 : (n + 1) % 16 = 0 then
      resetOut m c ⟨n + 1, hn⟩ h0 h1 (outsAt c n (Nat.lt_of_succ_lt hn)).1
    else if h2 : (n + 1) % 16 = 15 then
      finalOut m c ⟨n + 1, hn⟩ h2 (outsAt c n (Nat.lt_of_succ_lt hn)).1 (outsAt c n (Nat.lt_of_succ_lt hn)).2.1 (outsAt c n (Nat.lt_of_succ_lt hn)).2.2
    else
      accumOut m c ⟨n + 1, hn⟩ h1 h2 (outsAt c n (Nat.lt_of_succ_lt hn)).1 (outsAt c n (Nat.lt_of_succ_lt hn)).2.1 (outsAt c n (Nat.lt_of_succ_lt hn)).2.2

/-- The state the point before `t` left. -/
abbrev prev (c : Dev nD) (t : Fin cfg0.N) : Vec F S2048x128 .f32 × Vec F S2048x128 .f32 × Vec F S2048x128 .f32 :=
  outsAt m c (t.val - 1) (Nat.lt_of_le_of_lt (Nat.sub_le _ _) t.isLt)

theorem outsAt_first (c : Dev nD) (t : Fin cfg0.N) (h0 : t.val % 32 = 0) : outsAt m c t.val t.isLt = firstOut m c t h0 := by
  obtain ⟨n, hn⟩ := t
  cases n with
  | zero => rfl
  | succ n => exact dif_pos h0
theorem outsAt_reset (c : Dev nD) (t : Fin cfg0.N) (h0 : ¬t.val % 32 = 0) (h1 : t.val % 16 = 0) :
    outsAt m c t.val t.isLt = resetOut m c t h0 h1 (prev m c t).1 := by
  obtain ⟨n, hn⟩ := t
  cases n with
  | zero => exact absurd (Nat.zero_mod _) h0
  | succ n => exact (dif_neg h0).trans (dif_pos h1)
theorem outsAt_final (c : Dev nD) (t : Fin cfg0.N) (h2 : t.val % 16 = 15) :
    outsAt m c t.val t.isLt = finalOut m c t h2 (prev m c t).1 (prev m c t).2.1 (prev m c t).2.2 := by
  obtain ⟨n, hn⟩ := t
  cases n with
  | zero => exact absurd (show (0 : ℕ) % 16 = 15 from h2) (by decide)
  | succ n =>
    have h0 : ¬(n + 1) % 32 = 0 := fun h => by have : (n + 1) % 16 = 15 := h2; omega
    have h1 : ¬(n + 1) % 16 = 0 := fun h => by have : (n + 1) % 16 = 15 := h2; omega
    exact (dif_neg h0).trans ((dif_neg h1).trans (dif_pos h2))
theorem outsAt_accum (c : Dev nD) (t : Fin cfg0.N) (h1 : ¬t.val % 16 = 0) (h2 : ¬t.val % 16 = 15) :
    outsAt m c t.val t.isLt = accumOut m c t h1 h2 (prev m c t).1 (prev m c t).2.1 (prev m c t).2.2 := by
  obtain ⟨n, hn⟩ := t
  cases n with
  | zero => exact absurd (Nat.zero_mod _) h1
  | succ n =>
    have h0 : ¬(n + 1) % 32 = 0 := fun h => h1 (by have : (n + 1) % 32 = 0 := h; show (n + 1) % 16 = 0; omega)
    exact (dif_neg h0).trans ((dif_neg h1).trans (dif_neg h2))

/-- Away from a first point the output block is what the point before left, unless the layer is finished here. -/
theorem outsAt_kept (c : Dev nD) (t : Fin cfg0.N) (h0 : ¬t.val % 32 = 0) (h2 : ¬t.val % 16 = 15) :
    (outsAt m c t.val t.isLt).1 = (prev m c t).1 := by
  by_cases h1 : t.val % 16 = 0
  · rw [outsAt_reset m c t h0 h1]; unfold resetOut; dsimp only
  · rw [outsAt_accum m c t h1 h2]; unfold accumOut; dsimp only

/-! ## The invariant: the two running sums -/

def PhiS (c : Dev nD) : (n : ℕ) → n ≤ cfg0.N → sProp 𝕄
  | 0, _ => Pipeline.ΦA spec0 c
  | n + 1, hn => iprop(iprop(owns (c : Thread nD τ) scA fullShare ((outsAt m c n hn).2.1) ∗ owns (c : Thread nD τ) scM fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scA fullShare ((outsAt m c n hn).2.1) ∗ owns (c : Thread nD τ) scM fullShare ((outsAt m c n hn).2.2)) ∗ (∃ r, prngReg c r)) := rfl
theorem PhiS_pos (c : Dev nD) (n : ℕ) (h : n ≤ cfg0.N) (hz : n ≠ 0) :
    PhiS m c n h = iprop(iprop(owns (c : Thread nD τ) scA fullShare ((outsAt m c (n - 1) (by omega)).2.1) ∗ owns (c : Thread nD τ) scM fullShare ((outsAt m c (n - 1) (by omega)).2.2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- One step back for the output window, after a point that does not write the block back: if the window was idle
    there the buffer holds what that point found, -/
theorem before4_idle (c : Dev nD) (t : Fin cfg0.N) (ht : t.val ≠ 0)
    (hfl : (cfg0.win 4).flush ⟨t.val - 1, Nat.lt_of_le_of_lt (Nat.sub_le _ _) t.isLt⟩ = false)
    (hi : cfg0.idle 4 (cfg0.grid.coords ⟨t.val - 1, Nat.lt_of_le_of_lt (Nat.sub_le _ _) t.isLt⟩) = true) (d) :
    (dats m 0 c).before 4 t d = (dats m 0 c).before 4 ⟨t.val - 1, Nat.lt_of_le_of_lt (Nat.sub_le _ _) t.isLt⟩ d := by
  rw [(dats m 0 c).before_of_pos 4 t ht ((cfg0.win 4).fetch_out rfl t), hfl, if_neg Bool.false_ne_true]
  unfold Dat.left; rw [hi]
/-- and otherwise what that point stored. -/
theorem before4_live (c : Dev nD) (t : Fin cfg0.N) (ht : t.val ≠ 0)
    (hfl : (cfg0.win 4).flush ⟨t.val - 1, Nat.lt_of_le_of_lt (Nat.sub_le _ _) t.isLt⟩ = false)
    (hi : cfg0.idle 4 (cfg0.grid.coords ⟨t.val - 1, Nat.lt_of_le_of_lt (Nat.sub_le _ _) t.isLt⟩) = false) (d) :
    (dats m 0 c).before 4 t d = (dats m 0 c).after 4 ⟨t.val - 1, Nat.lt_of_le_of_lt (Nat.sub_le _ _) t.isLt⟩ := by
  rw [(dats m 0 c).before_of_pos 4 t ht ((cfg0.win 4).fetch_out rfl t), hfl, if_neg Bool.false_ne_true]
  unfold Dat.left; rw [hi]
  unfold Dat.kept
  rw [Pipeline.fill_of_clip_none 4 _ (noClip4 _) d ((dats m 0 c).after 4 _), Window.fill_cut]

/-- Away from a first point the output window's buffer holds what the point before left in it. -/
theorem before4 (c : Dev nD) : ∀ (n : ℕ) (hn : n < cfg0.N), ¬n % 32 = 0 → ∀ d,
    (dats m 0 c).before 4 ⟨n, hn⟩ d = (outsAt m c (n - 1) (Nat.lt_of_le_of_lt (Nat.sub_le _ _) hn)).1 := by
  intro n
  induction n using Nat.strong_induction_on with
  | _ n ih =>
    intro hn h0 d
    have hN : n < 128 := lt_of_lt_of_eq hn (show cfg0.N = 128 from N_0)
    have hz : n ≠ 0 := fun h => h0 (by rw [h])
    have hp : n - 1 < cfg0.N := Nat.lt_of_le_of_lt (Nat.sub_le _ _) hn
    have hfl := noFlush4_of ⟨n - 1, hp⟩ (by show (n - 1) % 32 ≠ 31; omega)
    by_cases hi : cfg0.idle 4 (cfg0.grid.coords ⟨n - 1, hp⟩) = true
    · rw [before4_idle m c ⟨n, hn⟩ hz hfl hi d]
      have hnf : ¬isFirst (grid0.coords ⟨n - 1, hp⟩) := fun h => by
        have := live4_first ⟨n - 1, hp⟩ h; rw [hi] at this; exact Bool.noConfusion this
      have hnl : ¬isLast (grid0.coords ⟨n - 1, hp⟩) := fun h => by
        have := live4_last ⟨n - 1, hp⟩ h; rw [hi] at this; exact Bool.noConfusion this
      have h0' : ¬(n - 1) % 32 = 0 := fun h => hnf ((isFirst_iff ⟨n - 1, hp⟩).mpr h)
      have h2' : ¬(n - 1) % 16 = 15 := fun h => hnl ((isLast_iff ⟨n - 1, hp⟩).mpr h)
      rw [ih (n - 1) (by omega) hp h0' d]
      exact (outsAt_kept m c ⟨n - 1, hp⟩ h0' h2').symm
    · have hi' : cfg0.idle 4 (cfg0.grid.coords ⟨n - 1, hp⟩) = false := by
        cases h : cfg0.idle 4 (cfg0.grid.coords ⟨n - 1, hp⟩) with
        | true => exact absurd h hi
        | false => rfl
      rw [before4_live m c ⟨n, hn⟩ hz hfl hi' d]
      exact after4 m c ⟨n - 1, hp⟩

theorem before4' (c : Dev nD) (t : Fin cfg0.N) (h0 : ¬t.val % 32 = 0) (d) : (dats m 0 c).before 4 t d = (prev m c t).1 :=
  before4 m c t.val t.isLt h0 d

end Cert.Kernel.Body

end
-- ==== Proof.Kernel.Obligation.lean ====
/-
  The body obligation of the pipeline: at each of the four kinds of grid point the body's triple (found by running
  it) is applied to what the pipeline hands the body — the four input blocks, the output block as the point before
  left it (anything at a first point), the two running sums from the invariant — and what it returns is what the
  recursion says. Then the frame run and the frame.
-/
import proofs.«111034_j90718299226373_2_alg».proof.Proof.Kernel.Body

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- A first point of a user tile. -/
theorem sound_first (c : Dev nD) (t : Fin cfg0.N) (h0 : t.val % 32 = 0) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4_first t ((isFirst_iff t).mpr h0)], after4]
  rw [outsAt_first m c t h0]
  unfold firstOut; (try dsimp only)
  by_cases hz : t.val = 0
  · rw [PhiS_castSucc m c t, PhiS_zero m c _ _ hz, PhiA_eq]
    iintro ⟨⟨⟨HA, HM⟩, Hg⟩, Ho, ⟨%d0, H0⟩, ⟨%d1, H1⟩, ⟨%d2, H2⟩, ⟨%d3, H3⟩, ⟨%d4, H4⟩⟩
    iapply ((firstRun m c t h0).2.2.2 Set.univ _)
    isplitl [H0]; · iexact H0
    isplitl [H1]; · iexact H1
    isplitl [H2]; · iexact H2
    isplitl [H3]; · iexact H3
    isplitl [H4]; · iexists _; iexact H4
    isplitl [HA]; · iexact HA
    isplitl [HM]; · iexact HM
    iintro ⟨H0, H1, H2, H3, ⟨%e4, H4⟩, ⟨%eA, HA⟩, ⟨%eM, HM⟩⟩
    isplitl [HA HM Hg]
    · isplitl [HA HM]
      · isplitl [HA]
        · unfold owns; iexists _; isplitr
          swap; · iexact HA
          ipureintro; exact View.read_writes_of_cover _ _ _ _ _ (firstCovA m c t h0)
        · unfold owns; iexists _; isplitr
          swap; · iexact HM
          ipureintro; exact View.read_writes_of_cover _ _ _ _ _ (firstCovM m c t h0)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (firstCov4 m c t h0)
  · rw [PhiS_castSucc m c t, PhiS_pos m c _ _ hz]
    iintro ⟨⟨⟨HA, HM⟩, Hg⟩, Ho, ⟨%d0, H0⟩, ⟨%d1, H1⟩, ⟨%d2, H2⟩, ⟨%d3, H3⟩, ⟨%d4, H4⟩⟩
    iapply ((firstRun m c t h0).2.2.2 Set.univ _)
    isplitl [H0]; · iexact H0
    isplitl [H1]; · iexact H1
    isplitl [H2]; · iexact H2
    isplitl [H3]; · iexact H3
    isplitl [H4]; · iexists _; iexact H4
    isplitl [HA]; · iexists _; iexact HA
    isplitl [HM]; · iexists _; iexact HM
    iintro ⟨H0, H1, H2, H3, ⟨%e4, H4⟩, ⟨%eA, HA⟩, ⟨%eM, HM⟩⟩
    isplitl [HA HM Hg]
    · isplitl [HA HM]
      · isplitl [HA]
        · unfold owns; iexists _; isplitr
          swap; · iexact HA
          ipureintro; exact View.read_writes_of_cover _ _ _ _ _ (firstCovA m c t h0)
        · unfold owns; iexists _; isplitr
          swap; · iexact HM
          ipureintro; exact View.read_writes_of_cover _ _ _ _ _ (firstCovM m c t h0)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (firstCov4 m c t h0)

set_option maxHeartbeats 4800000 in
/-- The second layer's first key tile. -/
theorem sound_reset (c : Dev nD) (t : Fin cfg0.N) (h0 : ¬t.val % 32 = 0) (h1 : t.val % 16 = 0) :
    bodyPre m c t ⊢ wp frame (wpE (defs₀ (F := F)) Variants.none c none) Set.univ (bodyAt0 t) (fun _ => bodyPost m c t) := by
  have hN : t.val < 128 := lt_of_lt_of_eq t.isLt (show cfg0.N = 128 from N_0)
  have hz : t.val ≠ 0 := fun h => h0 (by rw [h])
  have hnf : ¬isFirst (grid0.coords t) := fun hf => h0 ((isFirst_iff t).mp hf)
  have hnl : ¬isLast (grid0.coords t) := fun hl => by have := (isLast_iff t).mp hl; omega
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [Dat.leavesExact_idle (dats m 0 c) 4 t (idle4 t hnf hnl) (noFlush4 t hnl)]
  simp only [before4' m c t h0]
  rw [outsAt_reset m c t h0 h1]
  unfold resetOut; (try dsimp only)
  rw [PhiS_castSucc m c t, PhiS_pos m c _ _ hz]
  iintro ⟨⟨⟨HA, HM⟩, Hg⟩, Ho, ⟨%d0, H0⟩, ⟨%d1, H1⟩, ⟨%d2, H2⟩, ⟨%d3, H3⟩, ⟨%d4, H4⟩⟩
  iapply ((resetRun m c t h0 h1 (prev m c t).1).2.2 Set.univ _)
  isplitl [H0]; · iexact H0
  isplitl [H1]; · iexact H1
  isplitl [H2]; · iexact H2
  isplitl [H3]; · iexact H3
  isplitl [H4]; · iexact H4
  isplitl [HA]; · iexists _; iexact HA
  isplitl [HM]; · iexists _; iexact HM
  iintro ⟨H0, H1, H2, H3, H4, ⟨%eA, HA⟩, ⟨%eM, HM⟩⟩
  isplitl [HA HM Hg]
  · isplitl [HA HM]
    · isplitl [HA]
      · unfold owns; iexists _; isplitr
        swap; · iexact HA
        ipureintro; exact View.read_writes_of_cover _ _ _ _ _ (resetCovA m c t h0 h1 _)
      · unfold owns; iexists _; isplitr
        swap; · iexact HM
        ipureintro; exact View.read_writes_of_cover _ _ _ _ _ (resetCovM m c t h0 h1 _)
    iexact Hg
  isplitl [Ho]; · iexact Ho
  isplitl [H0]; · iexact H0
  isplitl [H1]; · iexact H1
  isplitl [H2]; · iexact H2
  isplitl [H3]; · iexact H3
  iexists d4; iexact H4

set_option maxHeartbeats 4800000 in
/-- A middle key tile. -/
theorem sound_accum (c : Dev nD) (t : Fin cfg0.N) (h1 : ¬t.val % 16 = 0) (h2 : ¬t.val % 16 = 15) :
    bodyPre m c t ⊢ wp frame (wpE (defs₀ (F := F)) Variants.none c none) Set.univ (bodyAt0 t) (fun _ => bodyPost m c t) := by
  have hN : t.val < 128 := lt_of_lt_of_eq t.isLt (show cfg0.N = 128 from N_0)
  have h0 : ¬t.val % 32 = 0 := fun h => h1 (by omega)
  have hz : t.val ≠ 0 := fun h => h0 (by rw [h])
  have hnf : ¬isFirst (grid0.coords t) := fun hf => h0 ((isFirst_iff t).mp hf)
  have hnl : ¬isLast (grid0.coords t) := fun hl => h2 ((isLast_iff t).mp hl)
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [Dat.leavesExact_idle (dats m 0 c) 4 t (idle4 t hnf hnl) (noFlush4 t hnl)]
  simp only [before4' m c t h0]
  rw [outsAt_accum m c t h1 h2]
  unfold accumOut; (try dsimp only)
  rw [PhiS_castSucc m c t, PhiS_pos m c _ _ hz]
  iintro ⟨⟨⟨HA, HM⟩, Hg⟩, Ho, ⟨%d0, H0⟩, ⟨%d1, H1⟩, ⟨%d2, H2⟩, ⟨%d3, H3⟩, ⟨%d4, H4⟩⟩
  iapply ((accumRun m c t h1 h2 (prev m c t).1 (prev m c t).2.1 (prev m c t).2.2).2.2 Set.univ _)
  isplitl [H0]; · iexact H0
  isplitl [H1]; · iexact H1
  isplitl [H2]; · iexact H2
  isplitl [H3]; · iexact H3
  isplitl [H4]; · iexact H4
  isplitl [HA]; · iexact HA
  isplitl [HM]; · iexact HM
  iintro ⟨H0, H1, H2, H3, H4, ⟨%eA, HA⟩, ⟨%eM, HM⟩⟩
  isplitl [HA HM Hg]
  · isplitl [HA HM]
    · isplitl [HA]
      · unfold owns; iexists _; isplitr
        swap; · iexact HA
        ipureintro; exact View.read_writes_of_cover _ _ _ _ _ (accumCovA m c t h1 h2 _ _ _)
      · unfold owns; iexists _; isplitr
        swap; · iexact HM
        ipureintro; exact View.read_writes_of_cover _ _ _ _ _ (accumCovM m c t h1 h2 _ _ _)
    iexact Hg
  isplitl [Ho]; · iexact Ho
  isplitl [H0]; · iexact H0
  isplitl [H1]; · iexact H1
  isplitl [H2]; · iexact H2
  isplitl [H3]; · iexact H3
  iexists d4; iexact H4

set_option maxHeartbeats 4800000 in
/-- A layer's last key tile. -/
theorem sound_final (c : Dev nD) (t : Fin cfg0.N) (h2 : t.val % 16 = 15) :
    bodyPre m c t ⊢ wp frame (wpE (defs₀ (F := F)) Variants.none c none) Set.univ (bodyAt0 t) (fun _ => bodyPost m c t) := by
  have hN : t.val < 128 := lt_of_lt_of_eq t.isLt (show cfg0.N = 128 from N_0)
  have h0 : ¬t.val % 32 = 0 := fun h => by omega
  have hz : t.val ≠ 0 := fun h => h0 (by rw [h])
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4_last t ((isLast_iff t).mpr h2)], after4]
  simp only [before4' m c t h0]
  rw [outsAt_final m c t h2]
  unfold finalOut; (try dsimp only)
  rw [PhiS_castSucc m c t, PhiS_pos m c _ _ hz]
  iintro ⟨⟨⟨HA, HM⟩, Hg⟩, Ho, ⟨%d0, H0⟩, ⟨%d1, H1⟩, ⟨%d2, H2⟩, ⟨%d3, H3⟩, ⟨%d4, H4⟩⟩
  iapply ((finalRun m c t h2 (prev m c t).1 (prev m c t).2.1 (prev m c t).2.2).2.2.2 Set.univ _)
  isplitl [H0]; · iexact H0
  isplitl [H1]; · iexact H1
  isplitl [H2]; · iexact H2
  isplitl [H3]; · iexact H3
  isplitl [H4]; · iexact H4
  isplitl [HA]; · iexact HA
  isplitl [HM]; · iexact HM
  iintro ⟨H0, H1, H2, H3, ⟨%e4, H4⟩, ⟨%eA, HA⟩, ⟨%eM, HM⟩⟩
  isplitl [HA HM Hg]
  · isplitl [HA HM]
    · isplitl [HA]
      · unfold owns; iexists _; isplitr
        swap; · iexact HA
        ipureintro; exact View.read_writes_of_cover _ _ _ _ _ (finalCovA m c t h2 _ _ _)
      · unfold owns; iexists _; isplitr
        swap; · iexact HM
        ipureintro; exact View.read_writes_of_cover _ _ _ _ _ (finalCovM m c t h2 _ _ _)
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (finalCov4 m c t h2 _ _ _)

theorem sound_body (c : Dev nD) (t : Fin cfg0.N) :
    bodyPre m c t ⊢ wp frame (wpE (defs₀ (F := F)) Variants.none c none) Set.univ (bodyAt0 t) (fun _ => bodyPost m c t) := by
  by_cases h0 : t.val % 32 = 0
  · exact sound_first m c t h0
  · by_cases h1 : t.val % 16 = 0
    · exact sound_reset m c t h0 h1
    · by_cases h2 : t.val % 16 = 15
      · exact sound_final m c t h2
      · exact sound_accum m c t h1 h2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class invariant back: the running sums' contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HA, HM⟩, Hg⟩
  isplitl [HA HM]
  · isplitl [HA]
    · iexists _; iexact HA
    · iexists _; iexact HM
  iexact Hg

theorem hout (c : Dev nD) : (dats m 0 c).Φ (Fin.last cfg0.N) ⊢ Pipeline.ΦA spec0 c :=
  Phi_out m c _ (by rw [Fin.val_last]; have : cfg0.N = 128 := N_0; omega)

set_option backward.isDefEq.respectTransparency.types false in
/-- The frame run: every weakly fair execution of @main terminates, faults nowhere, and ends with every array of
    the pipeline at what the library computes from the proof data. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.KernelIdeal.Cases.lean ====
/-
  The grid of the one pallas_call is 4 × 2 × 16: point t = 32·ui + 16·l + si (user tile, layer, key tile).
  The body branches on three conditions of the point: "first" (l = 0 and si = 0: the user tile is copied into the
  resident output block), "reset" (si = 0: both running sums are zeroed) and "last" (si = 15: the layer is
  finished and the output block replaced). Here they are decided over the grid in closed form, together with
  where the output window is idle and where it is written back, the names of the staging and scratch memrefs,
  and the region invariant opened into its two scratch buffers.
-/
import proofs.«111034_j90718299226373_2_alg».proof.Proof.Gen.KernelIdeal.Frame
import proofs.«111034_j90718299226373_2_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions -/

/-- l = 0 and si = 0. -/
abbrev isFirst (i : grid0.Coords) : Prop := k0_cond1 i = 1#1
/-- si = 0. -/
abbrev isReset (i : grid0.Coords) : Prop :=
  (Scalar.cmpi .ne (Scalar.extui (Scalar.cmpi .eq (BitVec.ofNat 32 (i 2).val) 0#32)) 0#32) = 1#1
/-- si = 15. -/
abbrev isLast (i : grid0.Coords) : Prop := k0_cond3 i = 1#1

theorem isFirst_iff : ∀ t : Fin cfg0.N, isFirst (grid0.coords t) ↔ t.val % 32 = 0 :=
  (by decide +kernel : ∀ t : Fin grid0.N, isFirst (grid0.coords t) ↔ t.val % 32 = 0)
theorem isReset_iff : ∀ t : Fin cfg0.N, isReset (grid0.coords t) ↔ t.val % 16 = 0 :=
  (by decide +kernel : ∀ t : Fin grid0.N, isReset (grid0.coords t) ↔ t.val % 16 = 0)
theorem isLast_iff : ∀ t : Fin cfg0.N, isLast (grid0.coords t) ↔ t.val % 16 = 15 :=
  (by decide +kernel : ∀ t : Fin grid0.N, isLast (grid0.coords t) ↔ t.val % 16 = 15)

/-! ## Where the windows are idle, and where the output is written back -/

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
/-- The output block is stored at the first point of a user tile and at the last point of a layer, -/
theorem live4_first : ∀ t : Fin cfg0.N, isFirst (grid0.coords t) → cfg0.idle 4 (grid0.coords t) = false := by decide +kernel
theorem live4_last : ∀ t : Fin cfg0.N, isLast (grid0.coords t) → cfg0.idle 4 (grid0.coords t) = false := by decide +kernel
/-- and nowhere else; -/
theorem idle4 : ∀ t : Fin cfg0.N, ¬isFirst (grid0.coords t) → ¬isLast (grid0.coords t) → cfg0.idle 4 (grid0.coords t) = true := by decide +kernel
/-- it is written back only at the last point of a user tile, which is a last point of a layer. -/
theorem noFlush4 : ∀ t : Fin cfg0.N, ¬isLast (grid0.coords t) → (cfg0.win 4).flush t = false := by decide +kernel
theorem noFlush4_of : ∀ t : Fin cfg0.N, t.val % 32 ≠ 31 → (cfg0.win 4).flush t = false := by decide +kernel
theorem noClip4 : ∀ (i : cfg0.grid.Coords) a, (cfg0.win 4).clip i a = none := fun _ _ => rfl

/-! ## The memrefs the body is called with -/

abbrev VO4 : View sig .tc .vmem S2048x128 .f32 := (Memref.whole cc0_stg4_0 : Memref sig .tc .vmem S2048x128 .f32).view
abbrev ms0 (t : Fin cfg0.N) : Memref sig .tc .vmem S2048x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x128 .f32 := win0_4.stage (cfg0.slots t 4)
abbrev hs4 (t : Fin cfg0.N) : (ms4 t).IsWhole := hstage0_4 ((cfg0.slots t 4).cast nbuf0_4)
/-- The running sum of |scores| (kept lane-broadcast) and the running weighted sum: two scratch buffers. -/
abbrev scA : Memref sig .tc .vmem S2048x128 .f32 := Memref.whole cc0_scratch0
abbrev scM : Memref sig .tc .vmem S2048x128 .f32 := Memref.whole cc0_scratch1
abbrev VA : View sig .tc .vmem S2048x128 .f32 := scA.view
abbrev VM : View sig .tc .vmem S2048x128 .f32 := scM.view

/-- The region invariant with the two scratch buffers as memrefs owned at some contents. -/
theorem PhiA_eq (c : Dev nD) :
    (Pipeline.ΦA spec0 c : sProp 𝕄)
      = iprop(iprop((∃ d, owns (c : Thread nD τ) scA fullShare d) ∗ (∃ d, owns (c : Thread nD τ) scM fullShare d)) ∗ (∃ r, prngReg c r)) := by
  unfold Pipeline.ΦA; rw [scopedRest0_eq]; simp only [scA, scM, owns_whole]; try rfl

end Cert.KernelIdeal.Body

end
-- ==== Proof.KernelIdeal.RunFirst.lean ====
/-
  The body at the FIRST point of a user tile (l = 0, si = 0): the user tile is copied into the output block, both
  running sums are zeroed, and the first key tile is accumulated into them. Whatever the output block and the two
  scratch buffers held before is overwritten: each ends with the pieces the stores wrote.
-/
import proofs.«111034_j90718299226373_2_alg».proof.Proof.KernelIdeal.Cases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores' pieces in the output block and in the two scratch buffers, with the body's triple on whole memrefs. -/
noncomputable def runFirst (c : Dev nD) (i : grid0.Coords) (arg3 : Memref sig .tc .vmem S2048x128 .f32) (harg3 : arg3.IsWhole) (arg4 : Memref sig .tc .vmem S1024x128 .f32) (harg4 : arg4.IsWhole) (arg5 : Memref sig .tc .vmem S1x128x128 .f32) (harg5 : arg5.IsWhole) (arg6 : Memref sig .tc .vmem S1x1x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (hc0 : isFirst i) (hc1 : isReset i) (hc2 : ¬isLast i)
    (x0 : Vec F S2048x128 .f32) (x1 : Vec F S1024x128 .f32) (x2 : Vec F S1x128x128 .f32) (x3 : Vec F S1x1x128 .f32) :
    Σ' (L4 : List (View.Piece (Elt F) S2048x128 .f32)) (LA : List (View.Piece (Elt F) S2048x128 .f32)), { LM : List (View.Piece (Elt F) S2048x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LA) ∗ (∃ f, arg9.view.loc (c : Thread nD τ) ↦[arg9.view.set]{fullShare} arg9.view.writes (Elt F) f LM)) -∗ K ⟨⟩))
          ⊢ wp frame (wpE (defs₀ (F := F)) Variants.none c none) E (cc0__gnn_kernel i arg3 harg3 arg4 harg4 arg5 harg5 arg6 harg6 arg7 harg7 arg8 harg8 arg9 harg9) K } := by
  refine ⟨?_, ?_, ?_, fun E K => ?run⟩
  case run =>
    simp only [cc0__gnn_kernel_eq_skeleton]; unfold cc0__gnn_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%dA, %fA, -, HA⟩, ⟨%dM, %fM, -, HM⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HA]; · iexists _; iexact HA
    iexists _; iexact HM

end Cert.KernelIdeal.Body

end
-- ==== Proof.KernelIdeal.RunReset.lean ====
/-
  The body at the first key tile of the SECOND layer (l = 1, si = 0): the output block, which holds the first
  layer's result, is read and left as it is; both running sums are zeroed and the first key tile accumulated.
-/
import proofs.«111034_j90718299226373_2_alg».proof.Proof.KernelIdeal.RunFirst

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runReset (c : Dev nD) (i : grid0.Coords) (arg3 : Memref sig .tc .vmem S2048x128 .f32) (harg3 : arg3.IsWhole) (arg4 : Memref sig .tc .vmem S1024x128 .f32) (harg4 : arg4.IsWhole) (arg5 : Memref sig .tc .vmem S1x128x128 .f32) (harg5 : arg5.IsWhole) (arg6 : Memref sig .tc .vmem S1x1x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (hc0 : ¬isFirst i) (hc1 : isReset i) (hc2 : ¬isLast i)
    (x0 : Vec F S2048x128 .f32) (x1 : Vec F S1024x128 .f32) (x2 : Vec F S1x128x128 .f32) (x3 : Vec F S1x1x128 .f32) (xo : Vec F S2048x128 .f32) :
    Σ' (LA : List (View.Piece (Elt F) S2048x128 .f32)), { LM : List (View.Piece (Elt F) S2048x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xo ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xo ∗ (∃ f, arg8.view.loc (c : Thread nD τ) ↦[arg8.view.set]{fullShare} arg8.view.writes (Elt F) f LA) ∗ (∃ f, arg9.view.loc (c : Thread nD τ) ↦[arg9.view.set]{fullShare} arg9.view.writes (Elt F) f LM)) -∗ K ⟨⟩))
          ⊢ wp frame (wpE (defs₀ (F := F)) Variants.none c none) E (cc0__gnn_kernel i arg3 harg3 arg4 harg4 arg5 harg5 arg6 harg6 arg7 harg7 arg8 harg8 arg9 harg9) K } := by
  refine ⟨?_, ?_, fun E K => ?run⟩
  case run =>
    simp only [cc0__gnn_kernel_eq_skeleton]; unfold cc0__gnn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%dA, %fA, -, HA⟩, ⟨%dM, %fM, -, HM⟩, Hk⟩
    obtain rfl := harg3.eq_unread hf0; obtain rfl := harg4.eq_unread hf1; obtain rfl := harg5.eq_unread hf2; obtain rfl := harg6.eq_unread hf3
    obtain rfl := harg7.eq_unread hf4
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HA]; · iexists _; iexact HA
    iexists _; iexact HM

end Cert.KernelIdeal.Body

end
-- ==== Proof.KernelIdeal.RunAccum.lean ====
/-
  The body at a MIDDLE key tile (0 < si < 15): the output block is read and left as it is; the key tile's
  contribution is added to both running sums, which are carried from the point before.
-/
import proofs.«111034_j90718299226373_2_alg».proof.Proof.KernelIdeal.RunReset

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runAccum (c : Dev nD) (i : grid0.Coords) (arg3 : Memref sig .tc .vmem S2048x128 .f32) (harg3 : arg3.IsWhole) (arg4 : Memref sig .tc .vmem S1024x128 .f32) (harg4 : arg4.IsWhole) (arg5 : Memref sig .tc .vmem S1x128x128 .f32) (harg5 : arg5.IsWhole) (arg6 : Memref sig .tc .vmem S1x1x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (hc0 : ¬isFirst i) (hc1 : ¬isReset i) (hc2 : ¬isLast i)
    (x0 : Vec F S2048x128 .f32) (x1 : Vec F S1024x128 .f32) (x2 : Vec F S1x128x128 .f32) (x3 : Vec F S1x1x128 .f32) (xo xa xm : Vec F S2048x128 .f32) :
    Σ' (LA : List (View.Piece (Elt F) S2048x128 .f32)), { LM : List (View.Piece (Elt F) S2048x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xo ∗ owns (c : Thread nD τ) arg8 fullShare xa ∗ owns (c : Thread nD τ) arg9 fullShare xm
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xo ∗ (∃ f, arg8.view.loc (c : Thread nD τ) ↦[arg8.view.set]{fullShare} arg8.view.writes (Elt F) f LA) ∗ (∃ f, arg9.view.loc (c : Thread nD τ) ↦[arg9.view.set]{fullShare} arg9.view.writes (Elt F) f LM)) -∗ K ⟨⟩))
          ⊢ wp frame (wpE (defs₀ (F := F)) Variants.none c none) E (cc0__gnn_kernel i arg3 harg3 arg4 harg4 arg5 harg5 arg6 harg6 arg7 harg7 arg8 harg8 arg9 harg9) K } := by
  refine ⟨?_, ?_, fun E K => ?run⟩
  case run =>
    simp only [cc0__gnn_kernel_eq_skeleton]; unfold cc0__gnn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fA, %hfA, HA⟩, ⟨%fM, %hfM, HM⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hfA; obtain rfl := harg9.eq_unread hfM
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HA]; · iexists _; iexact HA
    iexists _; iexact HM

end Cert.KernelIdeal.Body

end
-- ==== Proof.KernelIdeal.RunFinal.lean ====
/-
  The body at the LAST key tile of a layer (si = 15): the last contribution is added to both running sums, then the
  layer is finished — the weighted sum divided by the clamped sum of |scores| and by the number of keys, the dense
  layer, the residual, the bias and the rectifier — and the output block replaced by the result.
-/
import proofs.«111034_j90718299226373_2_alg».proof.Proof.KernelIdeal.RunAccum

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runFinal (c : Dev nD) (i : grid0.Coords) (arg3 : Memref sig .tc .vmem S2048x128 .f32) (harg3 : arg3.IsWhole) (arg4 : Memref sig .tc .vmem S1024x128 .f32) (harg4 : arg4.IsWhole) (arg5 : Memref sig .tc .vmem S1x128x128 .f32) (harg5 : arg5.IsWhole) (arg6 : Memref sig .tc .vmem S1x1x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (hc0 : ¬isFirst i) (hc1 : ¬isReset i) (hc2 : isLast i)
    (x0 : Vec F S2048x128 .f32) (x1 : Vec F S1024x128 .f32) (x2 : Vec F S1x128x128 .f32) (x3 : Vec F S1x1x128 .f32) (xo xa xm : Vec F S2048x128 .f32) :
    Σ' (L4 : List (View.Piece (Elt F) S2048x128 .f32)) (LA : List (View.Piece (Elt F) S2048x128 .f32)), { LM : List (View.Piece (Elt F) S2048x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xo ∗ owns (c : Thread nD τ) arg8 fullShare xa ∗ owns (c : Thread nD τ) arg9 fullShare xm
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LA) ∗ (∃ f, arg9.view.loc (c : Thread nD τ) ↦[arg9.view.set]{fullShare} arg9.view.writes (Elt F) f LM)) -∗ K ⟨⟩))
          ⊢ wp frame (wpE (defs₀ (F := F)) Variants.none c none) E (cc0__gnn_kernel i arg3 harg3 arg4 harg4 arg5 harg5 arg6 harg6 arg7 harg7 arg8 harg8 arg9 harg9) K } := by
  refine ⟨?_, ?_, ?_, fun E K => ?run⟩
  case run =>
    simp only [cc0__gnn_kernel_eq_skeleton]; unfold cc0__gnn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fA, %hfA, HA⟩, ⟨%fM, %hfM, HM⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hfA; obtain rfl := harg9.eq_unread hfM
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HA]; · iexists _; iexact HA
    iexists _; iexact HM

end Cert.KernelIdeal.Body

end
-- ==== Proof.KernelIdeal.Body.lean ====
/-
  What the resident output block and the two running sums hold after each grid point, by recursion on the point
  (a first point copies the user tile and restarts the sums; a layer's first key tile restarts the sums; a middle key
  tile adds to them; a layer's last key tile adds to them and replaces the output block by the finished layer), the
  pipeline's proof data over it, and the body obligation: at every point the body, run on the staging buffers the
  pipeline hands it and on the two scratch buffers, leaves exactly that.
-/
import proofs.«111034_j90718299226373_2_alg».proof.Proof.KernelIdeal.RunFinal

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The four runs at a grid point, and what their pieces read back to -/

abbrev firstRun (c : Dev nD) (t : Fin cfg0.N) (h0 : t.val % 32 = 0) :=
  runFirst (F := F) c (grid0.coords t) (ms0 t) (hs0 t) (ms1 t) (hs1 t) (ms2 t) (hs2 t) (ms3 t) (hs3 t) (ms4 t) (hs4 t) scA (Memref.isWhole_whole _) scM (Memref.isWhole_whole _) ((isFirst_iff t).mpr h0) ((isReset_iff t).mpr (by omega)) (fun hl => by have := (isLast_iff t).mp hl; omega) (iblk m c 0 t) (iblk m c 1 t) (iblk m c 2 t) (iblk m c 3 t)
abbrev resetRun (c : Dev nD) (t : Fin cfg0.N) (h0 : ¬t.val % 32 = 0) (h1 : t.val % 16 = 0) (xo : Vec F S2048x128 .f32) :=
  runReset (F := F) c (grid0.coords t) (ms0 t) (hs0 t) (ms1 t) (hs1 t) (ms2 t) (hs2 t) (ms3 t) (hs3 t) (ms4 t) (hs4 t) scA (Memref.isWhole_whole _) scM (Memref.isWhole_whole _) (fun hf => h0 ((isFirst_iff t).mp hf)) ((isReset_iff t).mpr h1) (fun hl => by have := (isLast_iff t).mp hl; omega) (iblk m c 0 t) (iblk m c 1 t) (iblk m c 2 t) (iblk m c 3 t) xo
abbrev accumRun (c : Dev nD) (t : Fin cfg0.N) (h1 : ¬t.val % 16 = 0) (h2 : ¬t.val % 16 = 15) (xo xa xm : Vec F S2048x128 .f32) :=
  runAccum (F := F) c (grid0.coords t) (ms0 t) (hs0 t) (ms1 t) (hs1 t) (ms2 t) (hs2 t) (ms3 t) (hs3 t) (ms4 t) (hs4 t) scA (Memref.isWhole_whole _) scM (Memref.isWhole_whole _) (fun hf => by have := (isFirst_iff t).mp hf; omega) (fun hr => h1 ((isReset_iff t).mp hr)) (fun hl => h2 ((isLast_iff t).mp hl)) (iblk m c 0 t) (iblk m c 1 t) (iblk m c 2 t) (iblk m c 3 t) xo xa xm
abbrev finalRun (c : Dev nD) (t : Fin cfg0.N) (h2 : t.val % 16 = 15) (xo xa xm : Vec F S2048x128 .f32) :=
  runFinal (F := F) c (grid0.coords t) (ms0 t) (hs0 t) (ms1 t) (hs1 t) (ms2 t) (hs2 t) (ms3 t) (hs3 t) (ms4 t) (hs4 t) scA (Memref.isWhole_whole _) scM (Memref.isWhole_whole _) (fun hf => by have := (isFirst_iff t).mp hf; omega) (fun hr => by have := (isReset_iff t).mp hr; omega) ((isLast_iff t).mpr h2) (iblk m c 0 t) (iblk m c 1 t) (iblk m c 2 t) (iblk m c 3 t) xo xa xm

/-- Every store of the body writes a whole block, so each list of pieces covers its buffer. -/
theorem firstCov4 (c : Dev nD) (t : Fin cfg0.N) (h0 : t.val % 32 = 0) (y : S2048x128.Idx) : ∃ pc ∈ (firstRun m c t h0).1, y ∈ pc.1.set :=
  View.cover_of_tiledL (firstRun m c t h0).1 S2048x128.size (by sl_kernel_rfl) y
theorem firstCovA (c : Dev nD) (t : Fin cfg0.N) (h0 : t.val % 32 = 0) (y : S2048x128.Idx) : ∃ pc ∈ (firstRun m c t h0).2.1, y ∈ pc.1.set :=
  View.cover_of_tiledL (firstRun m c t h0).2.1 S2048x128.size (by sl_kernel_rfl) y
theorem firstCovM (c : Dev nD) (t : Fin cfg0.N) (h0 : t.val % 32 = 0) (y : S2048x128.Idx) : ∃ pc ∈ (firstRun m c t h0).2.2.1, y ∈ pc.1.set :=
  View.cover_of_tiledL (firstRun m c t h0).2.2.1 S2048x128.size (by sl_kernel_rfl) y
theorem resetCovA (c : Dev nD) (t : Fin cfg0.N) (h0 : ¬t.val % 32 = 0) (h1 : t.val % 16 = 0) (xo : Vec F S2048x128 .f32) (y : S2048x128.Idx) : ∃ pc ∈ (resetRun m c t h0 h1 xo).1, y ∈ pc.1.set :=
  View.cover_of_tiledL (resetRun m c t h0 h1 xo).1 S2048x128.size (by sl_kernel_rfl) y
theorem resetCovM (c : Dev nD) (t : Fin cfg0.N) (h0 : ¬t.val % 32 = 0) (h1 : t.val % 16 = 0) (xo : Vec F S2048x128 .f32) (y : S2048x128.Idx) : ∃ pc ∈ (resetRun m c t h0 h1 xo).2.1, y ∈ pc.1.set :=
  View.cover_of_tiledL (resetRun m c t h0 h1 xo).2.1 S2048x128.size (by sl_kernel_rfl) y
theorem accumCovA (c : Dev nD) (t : Fin cfg0.N) (h1 : ¬t.val % 16 = 0) (h2 : ¬t.val % 16 = 15) (xo xa xm : Vec F S2048x128 .f32) (y : S2048x128.Idx) : ∃ pc ∈ (accumRun m c t h1 h2 xo xa xm).1, y ∈ pc.1.set :=
  View.cover_of_tiledL (accumRun m c t h1 h2 xo xa xm).1 S2048x128.size (by sl_kernel_rfl) y
theorem accumCovM (c : Dev nD) (t : Fin cfg0.N) (h1 : ¬t.val % 16 = 0) (h2 : ¬t.val % 16 = 15) (xo xa xm : Vec F S2048x128 .f32) (y : S2048x128.Idx) : ∃ pc ∈ (accumRun m c t h1 h2 xo xa xm).2.1, y ∈ pc.1.set :=
  View.cover_of_tiledL (accumRun m c t h1 h2 xo xa xm).2.1 S2048x128.size (by sl_kernel_rfl) y
theorem finalCov4 (c : Dev nD) (t : Fin cfg0.N) (h2 : t.val % 16 = 15) (xo xa xm : Vec F S2048x128 .f32) (y : S2048x128.Idx) : ∃ pc ∈ (finalRun m c t h2 xo xa xm).1, y ∈ pc.1.set :=
  View.cover_of_tiledL (finalRun m c t h2 xo xa xm).1 S2048x128.size (by sl_kernel_rfl) y
theorem finalCovA (c : Dev nD) (t : Fin cfg0.N) (h2 : t.val % 16 = 15) (xo xa xm : Vec F S2048x128 .f32) (y : S2048x128.Idx) : ∃ pc ∈ (finalRun m c t h2 xo xa xm).2.1, y ∈ pc.1.set :=
  View.cover_of_tiledL (finalRun m c t h2 xo xa xm).2.1 S2048x128.size (by sl_kernel_rfl) y
theorem finalCovM (c : Dev nD) (t : Fin cfg0.N) (h2 : t.val % 16 = 15) (xo xa xm : Vec F S2048x128 .f32) (y : S2048x128.Idx) : ∃ pc ∈ (finalRun m c t h2 xo xa xm).2.2.1, y ∈ pc.1.set :=
  View.cover_of_tiledL (finalRun m c t h2 xo xa xm).2.2.1 S2048x128.size (by sl_kernel_rfl) y

/-- (output block, sum of |scores|, weighted sum) after a first point. -/
def firstOut (c : Dev nD) (t : Fin cfg0.N) (h0 : t.val % 32 = 0) : Vec F S2048x128 .f32 × Vec F S2048x128 .f32 × Vec F S2048x128 .f32 :=
  (VO4.read (Elt F) (VO4.writes (Elt F) VO4.junk (firstRun m c t h0).1),
   VA.read (Elt F) (VA.writes (Elt F) VA.junk (firstRun m c t h0).2.1),
   VM.read (Elt F) (VM.writes (Elt F) VM.junk (firstRun m c t h0).2.2.1))
/-- after the second layer's first key tile, the output block `xo` kept. -/
def resetOut (c : Dev nD) (t : Fin cfg0.N) (h0 : ¬t.val % 32 = 0) (h1 : t.val % 16 = 0) (xo : Vec F S2048x128 .f32) : Vec F S2048x128 .f32 × Vec F S2048x128 .f32 × Vec F S2048x128 .f32 :=
  (xo,
   VA.read (Elt F) (VA.writes (Elt F) VA.junk (resetRun m c t h0 h1 xo).1),
   VM.read (Elt F) (VM.writes (Elt F) VM.junk (resetRun m c t h0 h1 xo).2.1))
/-- after a middle key tile. -/
def accumOut (c : Dev nD) (t : Fin cfg0.N) (h1 : ¬t.val % 16 = 0) (h2 : ¬t.val % 16 = 15) (xo xa xm : Vec F S2048x128 .f32) : Vec F S2048x128 .f32 × Vec F S2048x128 .f32 × Vec F S2048x128 .f32 :=
  (xo,
   VA.read (Elt F) (VA.writes (Elt F) VA.junk (accumRun m c t h1 h2 xo xa xm).1),
   VM.read (Elt F) (VM.writes (Elt F) VM.junk (accumRun m c t h1 h2 xo xa xm).2.1))
/-- after a layer's last key tile. -/
def finalOut (c : Dev nD) (t : Fin cfg0.N) (h2 : t.val % 16 = 15) (xo xa xm : Vec F S2048x128 .f32) : Vec F S2048x128 .f32 × Vec F S2048x128 .f32 × Vec F S2048x128 .f32 :=
  (VO4.read (Elt F) (VO4.writes (Elt F) VO4.junk (finalRun m c t h2 xo xa xm).1),
   VA.read (Elt F) (VA.writes (Elt F) VA.junk (finalRun m c t h2 xo xa xm).2.1),
   VM.read (Elt F) (VM.writes (Elt F) VM.junk (finalRun m c t h2 xo xa xm).2.2.1))

/-! ## Point by point -/

/-- What the output block and the two running sums hold after the body at position `n`. -/
def outsAt (c : Dev nD) : (n : ℕ) → n < cfg0.N → Vec F S2048x128 .f32 × Vec F S2048x128 .f32 × Vec F S2048x128 .f32
  | 0, hn => firstOut m c ⟨0, hn⟩ (Nat.zero_mod _)
  | n + 1, hn =>
    if h0 : (n + 1) % 32 = 0 then firstOut m c ⟨n + 1, hn⟩ h0
    else if h1 : (n + 1) % 16 = 0 then
      resetOut m c ⟨n + 1, hn⟩ h0 h1 (outsAt c n (Nat.lt_of_succ_lt hn)).1
    else if h2 : (n + 1) % 16 = 15 then
      finalOut m c ⟨n + 1, hn⟩ h2 (outsAt c n (Nat.lt_of_succ_lt hn)).1 (outsAt c n (Nat.lt_of_succ_lt hn)).2.1 (outsAt c n (Nat.lt_of_succ_lt hn)).2.2
    else
      accumOut m c ⟨n + 1, hn⟩ h1 h2 (outsAt c n (Nat.lt_of_succ_lt hn)).1 (outsAt c n (Nat.lt_of_succ_lt hn)).2.1 (outsAt c n (Nat.lt_of_succ_lt hn)).2.2

/-- The state the point before `t` left. -/
abbrev prev (c : Dev nD) (t : Fin cfg0.N) : Vec F S2048x128 .f32 × Vec F S2048x128 .f32 × Vec F S2048x128 .f32 :=
  outsAt m c (t.val - 1) (Nat.lt_of_le_of_lt (Nat.sub_le _ _) t.isLt)

theorem outsAt_first (c : Dev nD) (t : Fin cfg0.N) (h0 : t.val % 32 = 0) : outsAt m c t.val t.isLt = firstOut m c t h0 := by
  obtain ⟨n, hn⟩ := t
  cases n with
  | zero => rfl
  | succ n => exact dif_pos h0
theorem outsAt_reset (c : Dev nD) (t : Fin cfg0.N) (h0 : ¬t.val % 32 = 0) (h1 : t.val % 16 = 0) :
    outsAt m c t.val t.isLt = resetOut m c t h0 h1 (prev m c t).1 := by
  obtain ⟨n, hn⟩ := t
  cases n with
  | zero => exact absurd (Nat.zero_mod _) h0
  | succ n => exact (dif_neg h0).trans (dif_pos h1)
theorem outsAt_final (c : Dev nD) (t : Fin cfg0.N) (h2 : t.val % 16 = 15) :
    outsAt m c t.val t.isLt = finalOut m c t h2 (prev m c t).1 (prev m c t).2.1 (prev m c t).2.2 := by
  obtain ⟨n, hn⟩ := t
  cases n with
  | zero => exact absurd (show (0 : ℕ) % 16 = 15 from h2) (by decide)
  | succ n =>
    have h0 : ¬(n + 1) % 32 = 0 := fun h => by have : (n + 1) % 16 = 15 := h2; omega
    have h1 : ¬(n + 1) % 16 = 0 := fun h => by have : (n + 1) % 16 = 15 := h2; omega
    exact (dif_neg h0).trans ((dif_neg h1).trans (dif_pos h2))
theorem outsAt_accum (c : Dev nD) (t : Fin cfg0.N) (h1 : ¬t.val % 16 = 0) (h2 : ¬t.val % 16 = 15) :
    outsAt m c t.val t.isLt = accumOut m c t h1 h2 (prev m c t).1 (prev m c t).2.1 (prev m c t).2.2 := by
  obtain ⟨n, hn⟩ := t
  cases n with
  | zero => exact absurd (Nat.zero_mod _) h1
  | succ n =>
    have h0 : ¬(n + 1) % 32 = 0 := fun h => h1 (by have : (n + 1) % 32 = 0 := h; show (n + 1) % 16 = 0; omega)
    exact (dif_neg h0).trans ((dif_neg h1).trans (dif_neg h2))

/-- Away from a first point the output block is what the point before left, unless the layer is finished here. -/
theorem outsAt_kept (c : Dev nD) (t : Fin cfg0.N) (h0 : ¬t.val % 32 = 0) (h2 : ¬t.val % 16 = 15) :
    (outsAt m c t.val t.isLt).1 = (prev m c t).1 := by
  by_cases h1 : t.val % 16 = 0
  · rw [outsAt_reset m c t h0 h1]; unfold resetOut; dsimp only
  · rw [outsAt_accum m c t h1 h2]; unfold accumOut; dsimp only

/-! ## The invariant: the two running sums -/

def PhiS (c : Dev nD) : (n : ℕ) → n ≤ cfg0.N → sProp 𝕄
  | 0, _ => Pipeline.ΦA spec0 c
  | n + 1, hn => iprop(iprop(owns (c : Thread nD τ) scA fullShare ((outsAt m c n hn).2.1) ∗ owns (c : Thread nD τ) scM fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scA fullShare ((outsAt m c n hn).2.1) ∗ owns (c : Thread nD τ) scM fullShare ((outsAt m c n hn).2.2)) ∗ (∃ r, prngReg c r)) := rfl
theorem PhiS_pos (c : Dev nD) (n : ℕ) (h : n ≤ cfg0.N) (hz : n ≠ 0) :
    PhiS m c n h = iprop(iprop(owns (c : Thread nD τ) scA fullShare ((outsAt m c (n - 1) (by omega)).2.1) ∗ owns (c : Thread nD τ) scM fullShare ((outsAt m c (n - 1) (by omega)).2.2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- One step back for the output window, after a point that does not write the block back: if the window was idle
    there the buffer holds what that point found, -/
theorem before4_idle (c : Dev nD) (t : Fin cfg0.N) (ht : t.val ≠ 0)
    (hfl : (cfg0.win 4).flush ⟨t.val - 1, Nat.lt_of_le_of_lt (Nat.sub_le _ _) t.isLt⟩ = false)
    (hi : cfg0.idle 4 (cfg0.grid.coords ⟨t.val - 1, Nat.lt_of_le_of_lt (Nat.sub_le _ _) t.isLt⟩) = true) (d) :
    (dats m 0 c).before 4 t d = (dats m 0 c).before 4 ⟨t.val - 1, Nat.lt_of_le_of_lt (Nat.sub_le _ _) t.isLt⟩ d := by
  rw [(dats m 0 c).before_of_pos 4 t ht ((cfg0.win 4).fetch_out rfl t), hfl, if_neg Bool.false_ne_true]
  unfold Dat.left; rw [hi]
/-- and otherwise what that point stored. -/
theorem before4_live (c : Dev nD) (t : Fin cfg0.N) (ht : t.val ≠ 0)
    (hfl : (cfg0.win 4).flush ⟨t.val - 1, Nat.lt_of_le_of_lt (Nat.sub_le _ _) t.isLt⟩ = false)
    (hi : cfg0.idle 4 (cfg0.grid.coords ⟨t.val - 1, Nat.lt_of_le_of_lt (Nat.sub_le _ _) t.isLt⟩) = false) (d) :
    (dats m 0 c).before 4 t d = (dats m 0 c).after 4 ⟨t.val - 1, Nat.lt_of_le_of_lt (Nat.sub_le _ _) t.isLt⟩ := by
  rw [(dats m 0 c).before_of_pos 4 t ht ((cfg0.win 4).fetch_out rfl t), hfl, if_neg Bool.false_ne_true]
  unfold Dat.left; rw [hi]
  unfold Dat.kept
  rw [Pipeline.fill_of_clip_none 4 _ (noClip4 _) d ((dats m 0 c).after 4 _), Window.fill_cut]

/-- Away from a first point the output window's buffer holds what the point before left in it. -/
theorem before4 (c : Dev nD) : ∀ (n : ℕ) (hn : n < cfg0.N), ¬n % 32 = 0 → ∀ d,
    (dats m 0 c).before 4 ⟨n, hn⟩ d = (outsAt m c (n - 1) (Nat.lt_of_le_of_lt (Nat.sub_le _ _) hn)).1 := by
  intro n
  induction n using Nat.strong_induction_on with
  | _ n ih =>
    intro hn h0 d
    have hN : n < 128 := lt_of_lt_of_eq hn (show cfg0.N = 128 from N_0)
    have hz : n ≠ 0 := fun h => h0 (by rw [h])
    have hp : n - 1 < cfg0.N := Nat.lt_of_le_of_lt (Nat.sub_le _ _) hn
    have hfl := noFlush4_of ⟨n - 1, hp⟩ (by show (n - 1) % 32 ≠ 31; omega)
    by_cases hi : cfg0.idle 4 (cfg0.grid.coords ⟨n - 1, hp⟩) = true
    · rw [before4_idle m c ⟨n, hn⟩ hz hfl hi d]
      have hnf : ¬isFirst (grid0.coords ⟨n - 1, hp⟩) := fun h => by
        have := live4_first ⟨n - 1, hp⟩ h; rw [hi] at this; exact Bool.noConfusion this
      have hnl : ¬isLast (grid0.coords ⟨n - 1, hp⟩) := fun h => by
        have := live4_last ⟨n - 1, hp⟩ h; rw [hi] at this; exact Bool.noConfusion this
      have h0' : ¬(n - 1) % 32 = 0 := fun h => hnf ((isFirst_iff ⟨n - 1, hp⟩).mpr h)
      have h2' : ¬(n - 1) % 16 = 15 := fun h => hnl ((isLast_iff ⟨n - 1, hp⟩).mpr h)
      rw [ih (n - 1) (by omega) hp h0' d]
      exact (outsAt_kept m c ⟨n - 1, hp⟩ h0' h2').symm
    · have hi' : cfg0.idle 4 (cfg0.grid.coords ⟨n - 1, hp⟩) = false := by
        cases h : cfg0.idle 4 (cfg0.grid.coords ⟨n - 1, hp⟩) with
        | true => exact absurd h hi
        | false => rfl
      rw [before4_live m c ⟨n, hn⟩ hz hfl hi' d]
      exact after4 m c ⟨n - 1, hp⟩

theorem before4' (c : Dev nD) (t : Fin cfg0.N) (h0 : ¬t.val % 32 = 0) (d) : (dats m 0 c).before 4 t d = (prev m c t).1 :=
  before4 m c t.val t.isLt h0 d

end Cert.KernelIdeal.Body

end
-- ==== Proof.KernelIdeal.StepValues.lean ====
/-
  What the four kinds of point leave, read back as the body's arithmetic: every store of the body writes a whole
  block through the zero-offset rectangle, so a buffer ends at its LAST store's payload, a load after a store reads
  that store's payload, and a load of a buffer the pipeline or the invariant hands over reads its contents. In the
  payload names of the body: the score tile (`k0_pay6`), the running sum of |scores| (`k0_pay7`), the running
  weighted sum (`k0_pay8`), the finished layer (`k0_pay1`), the two zero blocks (`k0_pay2`, `k0_pay3`).
-/
import proofs.«111034_j90718299226373_2_alg».proof.Proof.KernelIdeal.Body
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- A whole buffer read back at the contents it was given. -/
theorem read_unread_whole (b : Ref sig .tc) (h : (Memref.whole b : Memref sig .tc b.space b.ty.shape b.ty.elt).IsWhole)
    (X : b.ty.shape.Idx → Elt F b.ty.elt) :
    View.read (Elt F) (View.whole b) (h.unread X) = X := h.read_unread X

theorem firstOut_eq (c : Dev nD) (t : Fin cfg0.N) (h0 : t.val % 32 = 0) :
    firstOut m c t h0 = (iblk m c 0 t, k0_pay7 (iblk m c 0 t) (iblk m c 1 t) k0_pay2, k0_pay8 (iblk m c 0 t) (iblk m c 1 t) k0_pay3) := by
  unfold firstOut
  rw [View.read_writes_eq_canon _ _ _ (firstCov4 m c t h0), View.read_writes_eq_canon _ _ _ (firstCovA m c t h0),
    View.read_writes_eq_canon _ _ _ (firstCovM m c t h0)]
  unfold firstRun runFirst
  dsimp only
  sl_unfold_words
  simp only [View.canon_cons_unit_zero (S := S2048x128) hz2, View.canon_unit_zero (S := S2048x128) hz2, View.readCov_unit_zero (S := S2048x128) _ hz2, View.readAt_eq_ld, (hs0 t).read_unread, (hs1 t).read_unread, (hs2 t).read_unread, (hs3 t).read_unread, (hs4 t).read_unread, Memref.IsWhole.read_unread, read_unread_whole, View.ld_unit_zero (S := S2048x128) hz2, View.ld_unit_zero (S := S1024x128) hz2, View.ld_unit_zero (S := S1x128x128) hz3, View.ld_unit_zero (S := S1x1x128) hz3]

theorem resetOut_eq (c : Dev nD) (t : Fin cfg0.N) (h0 : ¬t.val % 32 = 0) (h1 : t.val % 16 = 0) (xo : Vec F S2048x128 .f32) :
    resetOut m c t h0 h1 xo = (xo, k0_pay7 xo (iblk m c 1 t) k0_pay2, k0_pay8 xo (iblk m c 1 t) k0_pay3) := by
  unfold resetOut
  rw [View.read_writes_eq_canon _ _ _ (resetCovA m c t h0 h1 xo), View.read_writes_eq_canon _ _ _ (resetCovM m c t h0 h1 xo)]
  unfold resetRun runReset
  dsimp only
  sl_unfold_words
  simp only [View.canon_cons_unit_zero (S := S2048x128) hz2, View.canon_unit_zero (S := S2048x128) hz2, View.readCov_unit_zero (S := S2048x128) _ hz2, View.readAt_eq_ld, (hs0 t).read_unread, (hs1 t).read_unread, (hs2 t).read_unread, (hs3 t).read_unread, (hs4 t).read_unread, Memref.IsWhole.read_unread, read_unread_whole, View.ld_unit_zero (S := S2048x128) hz2, View.ld_unit_zero (S := S1024x128) hz2, View.ld_unit_zero (S := S1x128x128) hz3, View.ld_unit_zero (S := S1x1x128) hz3]

theorem accumOut_eq (c : Dev nD) (t : Fin cfg0.N) (h1 : ¬t.val % 16 = 0) (h2 : ¬t.val % 16 = 15) (xo xa xm : Vec F S2048x128 .f32) :
    accumOut m c t h1 h2 xo xa xm = (xo, k0_pay7 xo (iblk m c 1 t) xa, k0_pay8 xo (iblk m c 1 t) xm) := by
  unfold accumOut
  rw [View.read_writes_eq_canon _ _ _ (accumCovA m c t h1 h2 xo xa xm), View.read_writes_eq_canon _ _ _ (accumCovM m c t h1 h2 xo xa xm)]
  unfold accumRun runAccum
  dsimp only
  simp only [View.canon_cons_unit_zero (S := S2048x128) hz2, View.canon_unit_zero (S := S2048x128) hz2, View.readCov_unit_zero (S := S2048x128) _ hz2, View.readAt_eq_ld, (hs0 t).read_unread, (hs1 t).read_unread, (hs2 t).read_unread, (hs3 t).read_unread, (hs4 t).read_unread, Memref.IsWhole.read_unread, read_unread_whole, View.ld_unit_zero (S := S2048x128) hz2, View.ld_unit_zero (S := S1024x128) hz2, View.ld_unit_zero (S := S1x128x128) hz3, View.ld_unit_zero (S := S1x1x128) hz3]

theorem finalOut_eq (c : Dev nD) (t : Fin cfg0.N) (h2 : t.val % 16 = 15) (xo xa xm : Vec F S2048x128 .f32) :
    finalOut m c t h2 xo xa xm
      = (k0_pay1 (k0_pay4 xo) (k0_pay8 xo (iblk m c 1 t) xm) (k0_pay7 xo (iblk m c 1 t) xa) (iblk m c 2 t) (iblk m c 3 t),
         k0_pay7 xo (iblk m c 1 t) xa, k0_pay8 xo (iblk m c 1 t) xm) := by
  unfold finalOut
  rw [View.read_writes_eq_canon _ _ _ (finalCov4 m c t h2 xo xa xm), View.read_writes_eq_canon _ _ _ (finalCovA m c t h2 xo xa xm),
    View.read_writes_eq_canon _ _ _ (finalCovM m c t h2 xo xa xm)]
  unfold finalRun runFinal
  dsimp only
  sl_unfold_words
  simp only [View.canon_cons_unit_zero (S := S2048x128) hz2, View.canon_unit_zero (S := S2048x128) hz2, View.readCov_unit_zero (S := S2048x128) _ hz2, View.readAt_eq_ld, (hs0 t).read_unread, (hs1 t).read_unread, (hs2 t).read_unread, (hs3 t).read_unread, (hs4 t).read_unread, Memref.IsWhole.read_unread, read_unread_whole, View.ld_unit_zero (S := S2048x128) hz2, View.ld_unit_zero (S := S1024x128) hz2, View.ld_unit_zero (S := S1x128x128) hz3, View.ld_unit_zero (S := S1x1x128) hz3]

end Cert.KernelIdeal.Body

end
-- ==== Proof.LibPlainMatmul.lean ====
import Idealize.ShloMosaic.Lib.ValueIdx
import Idealize.ShloMosaic.PureOps.Ideal.Laws

/-!
# A plain matrix product read at an index

The product of a left operand `[M, K]` and a right operand `[K, N]` into a zero accumulator `[M, N]` — contracting the
left operand's axis 1 with the right operand's axis 0, no batch axis — has, over the extended reals, at `(p, q)` the
element `∑ k, l[p, k] · r[k, q]`: the contraction index is its one coordinate, the left operand's index at `(p, q)`
and `k` is `(p, k)`, the right operand's `(k, q)`.

The statement comes twice: for the record of dimension numbers written out with its well-formedness proof as an
argument (`…_lit`), and for an arbitrary record whose fields are fixed by equations (each `rfl` for a literal record).
-/

noncomputable section

open scoped BigOperators

namespace Idealize.ShloMosaic.PlainMatmul

open Idealize.ShloMosaic Idealize.ShloMosaic.ValueIdx

/-- The dimension numbers of a plain product: `[M, K] · [K, N] → [M, N]`. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- The plain product into the zero accumulator, at `(p, q)`, is `∑ k, l[p, k] · r[k, q]`. -/
theorem matmul_plain_lit {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDims M K N wf) prec l r (constant ⟨2, ![M, N]⟩ .f32 0x00000000#32) (ix2 p q)
      = ∑ k : Fin K, l (ix2 p k) * r (ix2 k q) := by
  rw [Ideal.matmul_constant_zero_apply, ← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ =>
        show ((plainDims M K N wf).lhsIdx (ix2 p q) _ 0).val = p.val
        unfold DotDims.lhsIdx
        rw [dif_neg (show ¬ (0 : Fin 2) ∈ (plainDims M K N wf).lhsBatch from List.not_mem_nil),
          dif_pos (show (0 : Fin 2) ∈ (plainDims M K N wf).lhsNonContracting from List.mem_singleton.mpr rfl)]
        rfl
      | ⟨1, _⟩ => exact ((plainDims M K N wf).lhsIdx_val_of_single rfl _ _).trans hk)
  have er : (plainDims M K N wf).rhsIdx (ix2 p q) ((contrEquiv1 (plainDims M K N wf) K rfl rfl).symm k) = ix2 k q :=
    funext fun a => Fin.ext (by
      match a with
      | ⟨0, _⟩ => exact ((plainDims M K N wf).rhsIdx_val_of_single rfl _ _).trans hk
      | ⟨1, _⟩ =>
        show ((plainDims M K N wf).rhsIdx (ix2 p q) _ 1).val = q.val
        unfold DotDims.rhsIdx
        rw [dif_neg (show ¬ (1 : Fin 2) ∈ (plainDims M K N wf).rhsBatch from List.not_mem_nil),
          dif_pos (show (1 : Fin 2) ∈ (plainDims M K N wf).rhsNonContracting from List.mem_singleton.mpr rfl)]
        rfl)
  rw [el, er]

/-- The same for ANY record of dimension numbers of these shapes whose fields are those of a plain product. -/
theorem matmul_plain_apply {M K N : Nat} {φ₁ φ₂ : FTy}
    (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (p : Fin M) (q : Fin N) :
    FloatOps.matmul d prec l r (constant ⟨2, ![M, N]⟩ .f32 0x00000000#32) (ix2 p q)
      = ∑ k : Fin K, l (ix2 p k) * r (ix2 k q) := by
  obtain ⟨lc, rc, ln, rn, lb, rb, wf⟩ := d
  simp only at hlc hrc hln hrn hlb hrb
  subst hlc hrc hln hrn hlb hrb
  exact matmul_plain_lit wf prec l r p q

end Idealize.ShloMosaic.PlainMatmul

end
-- ==== Proof.LibColumnForms.lean ====
import Idealize.ShloMosaic.Lib.ValueLayout

/-!
# Column forms read at an index

A vector kept as a one-column matrix (a sum with `keepdims`): the cast of a vector `[a]` to a column `[a, 1]`, and a
column `[a, 1]` repeated across the columns of `[a, b]`, each read at an index given by coordinates.
-/

namespace Idealize.ShloMosaic.ColumnForms

open Idealize.ShloMosaic Idealize.ShloMosaic.ValueIdx

variable {α : Type}

/-- A vector `[a]` cast to a column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` repeated across the columns of `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnForms
-- ==== Proof.RowLayer.lean ====
/-
  One row of the attention layer, over the extended reals.

  For a row `x : Fin 128 → EReal` of the layer's input and the keys `key : Fin 16384 → Fin 128 → EReal`:
  the score against key `s` is `∑ k, x k · key s k`; the normaliser is `max (∑ s, |score s|) ε`; the message is
  `(∑ s, (score s / nrm) · key s k) / S` — each score divided by the normaliser BEFORE the sum over the keys — and
  the row of the result is `max ((x d + ∑ k, message k · W d k) + b d) 0`.

  A kernel that streams the keys tile by tile cannot divide before it has seen all of them: it sums
  `∑ s, score s · key s k` and divides the sum. The two agree on ALL extended reals: the normaliser is at least
  `ε > 0`, so dividing by it is multiplying by its inverse, a non-negative number that is not `+∞`
  (the inverse of `+∞` is `0`), and multiplication by such a number distributes over every finite sum.
  Also here: the sum over the 16384 keys as the sum over 16 tiles of 1024 keys.
-/
import Idealize.ShloMosaic.PureOps.Ideal
import Mathlib.Algebra.BigOperators.Fin
import Mathlib.Algebra.BigOperators.Intervals
import Mathlib.Data.EReal.Inv

noncomputable section

open scoped BigOperators
open Idealize.ShloMosaic

namespace Cert.RowLayer

/-- The absolute value as both programs compute it. -/
def absE (x : EReal) : EReal := max x (-x)

theorem absE_nonneg (x : EReal) : 0 ≤ absE x := by
  unfold absE
  rcases le_total 0 x with h | h
  · exact le_max_of_le_left h
  · exact le_max_of_le_right (by simpa using EReal.neg_le_neg_iff.mpr h)

/-- Multiplication by a non-negative number that is not `+∞` distributes over a finite sum. -/
theorem sum_mul_of_nonneg_ne_top {ι : Type*} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- Dividing by a positive number is multiplying by its inverse. -/
theorem div_of_pos (x : EReal) {n : EReal} (hn : 0 < n) : Ideal.div x n = x * n⁻¹ := by
  unfold Ideal.div; rw [if_neg hn.ne']

/-- THE LAW: a positive divisor moves out of the weighted sum. -/
theorem sum_div_mul {ι : Type*} [Fintype ι] (a v : ι → EReal) {n : EReal} (hn : 0 < n) :
    ∑ s, Ideal.div (a s) n * v s = Ideal.div (∑ s, a s * v s) n := by
  rw [div_of_pos _ hn, sum_mul_of_nonneg_ne_top _ _ (EReal.inv_nonneg_of_nonneg hn.le) (EReal.inv_lt_top n).ne]
  refine Finset.sum_congr rfl fun s _ => ?_
  rw [div_of_pos _ hn, mul_assoc, mul_comm n⁻¹ (v s), ← mul_assoc]

variable (ε cS z : EReal)

/-- The score of a row against key `s`. -/
def score (x : Fin 128 → EReal) (key : Fin 16384 → Fin 128 → EReal) (s : Fin 16384) : EReal := ∑ k : Fin 128, x k * key s k

/-- The normaliser: the sum of the absolute scores, at least `ε`. -/
def nrm (x : Fin 128 → EReal) (key : Fin 16384 → Fin 128 → EReal) : EReal := max (∑ s, absE (score x key s)) ε

theorem nrm_pos (hε : 0 < ε) (x : Fin 128 → EReal) (key : Fin 16384 → Fin 128 → EReal) : 0 < nrm ε x key :=
  lt_of_lt_of_le hε (le_max_right _ _)

/-- The row of the layer, each score normalised before the sum over the keys. -/
def layer (x : Fin 128 → EReal) (key : Fin 16384 → Fin 128 → EReal) (W : Fin 128 → Fin 128 → EReal) (b : Fin 128 → EReal)
    (d : Fin 128) : EReal :=
  max ((x d + ∑ k : Fin 128, Ideal.div (∑ s, Ideal.div (score x key s) (nrm ε x key) * key s k) cS * W d k) + b d) z

/-- The same with the sum over the keys normalised after it is taken. -/
def layerStreamed (x : Fin 128 → EReal) (key : Fin 16384 → Fin 128 → EReal) (W : Fin 128 → Fin 128 → EReal) (b : Fin 128 → EReal)
    (d : Fin 128) : EReal :=
  max ((x d + ∑ k : Fin 128, Ideal.div (Ideal.div (∑ s, score x key s * key s k) (nrm ε x key)) cS * W d k) + b d) z

theorem layerStreamed_eq (hε : 0 < ε) (x : Fin 128 → EReal) (key : Fin 16384 → Fin 128 → EReal) (W : Fin 128 → Fin 128 → EReal)
    (b : Fin 128 → EReal) (d : Fin 128) : layerStreamed ε cS z x key W b d = layer ε cS z x key W b d := by
  unfold layerStreamed layer
  simp only [sum_div_mul _ _ (nrm_pos ε hε x key)]

/-- Key `1024·i + q`. -/
def keyIx (i : Fin 16) (q : Fin 1024) : Fin 16384 := ⟨1024 * i.val + q.val, by have := i.isLt; have := q.isLt; omega⟩

/-- The sum over the keys, tile by tile. -/
theorem sum_tiles {M : Type*} [AddCommMonoid M] (f : Fin 16384 → M) :
    ∑ s, f s = ∑ i : Fin 16, ∑ q : Fin 1024, f (keyIx i q) := by
  rw [← Fintype.sum_prod_type' (f := fun i q => f (keyIx i q))]
  refine (Fintype.sum_equiv (finProdFinEquiv (m := 16) (n := 1024)) _ _ fun p => ?_).symm
  refine congrArg f (Fin.ext ?_)
  show 1024 * p.1.val + p.2.val = p.2.val + 1024 * p.1.val
  omega

end Cert.RowLayer

end
-- ==== Proof.KernelIdeal.Payloads.lean ====
/-
  The body's arithmetic read at an index, over the extended reals (changes of float format are the identity there).
  For an output block `o : [2048,128]`, a key tile `sq : [1024,128]`, the running sums `a`, `g : [2048,128]`, the
  layer's weights `w : [1,128,128]` and bias `b : [1,1,128]`:
    score tile     (r, q)  ↦  ∑ k, o[r,k] · sq[q,k]                  (the product with the transposed key tile)
    sum of |score| (r, k)  ↦  a[r,k] + ∑ q, |score[r,q]|             (a lane sum kept as a column, repeated across k)
    weighted sum   (r, k)  ↦  g[r,k] + ∑ q, score[r,q] · sq[q,k]
    finished layer (r, d)  ↦  max ((o[r,d] + ∑ k, ((g[r,k] / max a[r,k] ε) / S) · w[0,d,k]) + b[0,0,d]) 0
-/
import proofs.«111034_j90718299226373_2_alg».proof.Proof.Gen.KernelIdeal.Skeleton
import proofs.«111034_j90718299226373_2_alg».proof.Proof.LibPlainMatmul
import proofs.«111034_j90718299226373_2_alg».proof.Proof.LibColumnForms
import proofs.«111034_j90718299226373_2_alg».proof.Proof.RowLayer
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Pay

open Cert.KernelIdeal Cert.KernelIdeal.Gen
open Idealize.ShloMosaic Idealize.ShloMosaic.ValueIdx Idealize.ShloMosaic.PlainMatmul Idealize.ShloMosaic.ColumnForms
open Cert.RowLayer

/-- The three literals of the body: the clamp of the normaliser, the number of keys, and zero. -/
abbrev εw : EReal := Ideal.ofBits .f32 0x2B8CBCCC#32
abbrev Sw : EReal := Ideal.ofBits .f32 0x46800000#32
abbrev zw : EReal := Ideal.ofBits .f32 0x00000000#32

theorem pay2_apply (i : S2048x128.Idx) : k0_pay2 (F := Ideal) i = 0 := by
  unfold k0_pay2
  rw [shapeCast_self]
  exact Ideal.ofBits_zero_f32

theorem pay3_apply (i : S2048x128.Idx) : k0_pay3 (F := Ideal) i = 0 := by
  unfold k0_pay3
  rw [shapeCast_self]
  exact Ideal.ofBits_zero_f32

theorem pay4_eq (o : Vec Ideal S2048x128 .f32) : k0_pay4 (F := Ideal) o = o := by
  unfold k0_pay4
  exact shapeCast_self _ _

/-- The score tile. -/
theorem pay6_apply (o : Vec Ideal S2048x128 .f32) (sq : Vec Ideal S1024x128 .f32) (r : Fin 2048) (q : Fin 1024) :
    k0_pay6 (F := Ideal) o sq (ix2 r q) = ∑ k : Fin 128, o (ix2 r k) * sq (ix2 q k) := by
  unfold k0_pay6
  refine (matmul_plain_apply dot_S2048x128_S128x1024_S2048x1024_1_0_0_1_n_n rfl rfl rfl rfl rfl rfl none _ _ r q).trans ?_
  refine Finset.sum_congr rfl fun k _ => ?_
  rw [pay4_eq]
  congr 1
  unfold k0_pay5
  exact transpose_apply [1, 0] _ _ (ix2 k q) (ix2 q k) (fun b => by match b with | ⟨0, _⟩ => rfl | ⟨1, _⟩ => rfl)

/-- The running sum of the absolute scores. -/
theorem pay7_apply (o : Vec Ideal S2048x128 .f32) (sq : Vec Ideal S1024x128 .f32) (a : Vec Ideal S2048x128 .f32) (r : Fin 2048) (k : Fin 128) :
    k0_pay7 (F := Ideal) o sq a (ix2 r k) = a (ix2 r k) + ∑ q : Fin 1024, absE (k0_pay6 (F := Ideal) o sq (ix2 r q)) := by
  unfold k0_pay7
  rw [shapeCast_self]
  show a (ix2 r k) + broadcastTo S2048x128 _ _ (ix2 r k) = _
  congr 1
  rw [broadcastTo_a1_ab_apply, shapeCast_self, shapeCast_a_a1_apply]
  refine (Ideal.multiReduction_add_single (absf (k0_pay6 (F := Ideal) o sq)) 0x00000000#32 reduces_S2048x1024_S2048 _ _ (ix1 r)).trans ?_
  refine Finset.sum_congr rfl fun q _ => ?_
  have e : reduces_S2048x1024_S2048.lift (ix1 r) q = ix2 r q :=
    funext fun a => Fin.ext (by match a with | ⟨0, _⟩ => rfl | ⟨1, _⟩ => rfl)
  rw [e]; rfl

/-- The running weighted sum. -/
theorem pay8_apply (o : Vec Ideal S2048x128 .f32) (sq : Vec Ideal S1024x128 .f32) (g : Vec Ideal S2048x128 .f32) (r : Fin 2048) (k : Fin 128) :
    k0_pay8 (F := Ideal) o sq g (ix2 r k) = g (ix2 r k) + ∑ q : Fin 1024, k0_pay6 (F := Ideal) o sq (ix2 r q) * sq (ix2 q k) := by
  unfold k0_pay8
  rw [shapeCast_self]
  show g (ix2 r k) + _ = _
  congr 1
  exact matmul_plain_apply dot_S2048x1024_S1024x128_S2048x128_1_0_0_1_n_n rfl rfl rfl rfl rfl rfl none _ _ r k

/-- A bias kept as `[1, 1, 128]`, cast to one row `[1, 128]`, reads at `(0, d)` its `(0, 0, d)`. -/
theorem shapeCast_11b_1b_apply {α : Type} (b : S1x1x128.Idx → α) (h : S1x1x128.ShapeCasts S1x128) (d : Fin 128) :
    shapeCast S1x128 b h (ix2 (0 : Fin 1) d) = b (ix3 (0 : Fin 1) (0 : Fin 1) d) :=
  shapeCast_apply b h _ _ (by
    rw [Shape.rowMajor_val_three, Shape.rowMajor_val_two]
    show (0 * 1 + 0) * 128 + d.val = 0 * 128 + d.val
    omega)

/-- The finished layer. -/
theorem pay1_apply (v9 g a : Vec Ideal S2048x128 .f32) (w : Vec Ideal S1x128x128 .f32) (b : Vec Ideal S1x1x128 .f32) (r : Fin 2048) (d : Fin 128) :
    k0_pay1 (F := Ideal) v9 g a w b (ix2 r d)
      = max ((v9 (ix2 r d) + ∑ k : Fin 128, Ideal.div (Ideal.div (g (ix2 r k)) (max (a (ix2 r k)) εw)) Sw * w (ix3 (0 : Fin 1) d k))
          + b (ix3 (0 : Fin 1) (0 : Fin 1) d)) zw := by
  unfold k0_pay1
  refine congrArg₂ max (congrArg₂ (· + ·) (congrArg (v9 (ix2 r d) + ·) ?_) ?_) rfl
  · refine (matmul_plain_apply dot_S2048x128_S128x128_S2048x128_1_0_0_1_n_n rfl rfl rfl rfl rfl rfl none _ _ r d).trans ?_
    refine Finset.sum_congr rfl fun k _ => ?_
    congr 1
    exact (transpose_apply [1, 0] _ _ (ix2 k d) (ix2 d k) (fun b => by match b with | ⟨0, _⟩ => rfl | ⟨1, _⟩ => rfl)).trans
      (shapeCast_1ab_ab_apply w _ d k)
  · exact (broadcastTo_1b_ab_apply _ _ r d).trans (shapeCast_11b_1b_apply b _ d)

end Cert.KernelIdeal.Pay

end
-- ==== Proof.KernelIdeal.Stream.lean ====
/-
  The kernel's values at the ideal instance, point by point and then in closed form over one layer.
  Position `n = 32·ui + 16·l + si`. Within a layer the output block keeps the layer's input `o`; after key tile `j`
  the two running sums are the sums over the tiles `0..j` of the tile's absolute scores and of its scores weighted
  by the keys; after the last tile the output block is the finished layer of `o` over these sums.
-/
import proofs.«111034_j90718299226373_2_alg».proof.Proof.KernelIdeal.StepValues
import proofs.«111034_j90718299226373_2_alg».proof.Proof.KernelIdeal.Payloads
import proofs.«111034_j90718299226373_2_alg».proof.Proof.RowLayer

set_option maxRecDepth 16384

noncomputable section

open scoped BigOperators

namespace Cert.KernelIdeal.Stream

open Cert.KernelIdeal Cert.KernelIdeal.Gen Cert.KernelIdeal.Body Cert.KernelIdeal.Pay Cert.RowLayer
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (c : Dev nD)

/-- The blocks the windows hold at position `n`, and the state after it, as total functions of the position. -/
def blk0 (n : ℕ) : Vec Ideal S2048x128 .f32 := if h : n < cfg0.N then iblk m c 0 ⟨n, h⟩ else fun _ => (0 : EReal)
def blk1 (n : ℕ) : Vec Ideal S1024x128 .f32 := if h : n < cfg0.N then iblk m c 1 ⟨n, h⟩ else fun _ => (0 : EReal)
def blk2 (n : ℕ) : Vec Ideal S1x128x128 .f32 := if h : n < cfg0.N then iblk m c 2 ⟨n, h⟩ else fun _ => (0 : EReal)
def blk3 (n : ℕ) : Vec Ideal S1x1x128 .f32 := if h : n < cfg0.N then iblk m c 3 ⟨n, h⟩ else fun _ => (0 : EReal)
def st (n : ℕ) : Vec Ideal S2048x128 .f32 × Vec Ideal S2048x128 .f32 × Vec Ideal S2048x128 .f32 :=
  if h : n < cfg0.N then outsAt m c n h else (fun _ => (0 : EReal), fun _ => (0 : EReal), fun _ => (0 : EReal))

theorem lt_of_lt128 {n : ℕ} (h : n < 128) : n < cfg0.N := lt_of_lt_of_eq h N_0.symm

theorem st_first {n : ℕ} (hn : n < 128) (h0 : n % 32 = 0) :
    st m c n = (blk0 m c n, k0_pay7 (blk0 m c n) (blk1 m c n) (k0_pay2 (F := Ideal)), k0_pay8 (blk0 m c n) (blk1 m c n) (k0_pay3 (F := Ideal))) := by
  unfold st blk0 blk1
  rw [dif_pos (lt_of_lt128 hn), dif_pos (lt_of_lt128 hn), dif_pos (lt_of_lt128 hn)]
  exact (outsAt_first m c ⟨n, lt_of_lt128 hn⟩ h0).trans (firstOut_eq m c ⟨n, lt_of_lt128 hn⟩ h0)

theorem st_reset {n : ℕ} (hn : n < 128) (h0 : ¬n % 32 = 0) (h1 : n % 16 = 0) :
    st m c n = ((st m c (n - 1)).1, k0_pay7 (st m c (n - 1)).1 (blk1 m c n) (k0_pay2 (F := Ideal)), k0_pay8 (st m c (n - 1)).1 (blk1 m c n) (k0_pay3 (F := Ideal))) := by
  unfold st blk1
  rw [dif_pos (lt_of_lt128 hn), dif_pos (lt_of_lt128 hn), dif_pos (lt_of_lt128 (by omega : n - 1 < 128))]
  exact (outsAt_reset m c ⟨n, lt_of_lt128 hn⟩ h0 h1).trans (resetOut_eq m c ⟨n, lt_of_lt128 hn⟩ h0 h1 _)

theorem st_accum {n : ℕ} (hn : n < 128) (h1 : ¬n % 16 = 0) (h2 : ¬n % 16 = 15) :
    st m c n = ((st m c (n - 1)).1, k0_pay7 (st m c (n - 1)).1 (blk1 m c n) (st m c (n - 1)).2.1,
      k0_pay8 (st m c (n - 1)).1 (blk1 m c n) (st m c (n - 1)).2.2) := by
  unfold st blk1
  rw [dif_pos (lt_of_lt128 hn), dif_pos (lt_of_lt128 hn), dif_pos (lt_of_lt128 (by omega : n - 1 < 128))]
  exact (outsAt_accum m c ⟨n, lt_of_lt128 hn⟩ h1 h2).trans (accumOut_eq m c ⟨n, lt_of_lt128 hn⟩ h1 h2 _ _ _)

theorem st_final {n : ℕ} (hn : n < 128) (h2 : n % 16 = 15) :
    st m c n = (k0_pay1 (k0_pay4 (st m c (n - 1)).1) (k0_pay8 (st m c (n - 1)).1 (blk1 m c n) (st m c (n - 1)).2.2)
        (k0_pay7 (st m c (n - 1)).1 (blk1 m c n) (st m c (n - 1)).2.1) (blk2 m c n) (blk3 m c n),
      k0_pay7 (st m c (n - 1)).1 (blk1 m c n) (st m c (n - 1)).2.1,
      k0_pay8 (st m c (n - 1)).1 (blk1 m c n) (st m c (n - 1)).2.2) := by
  unfold st blk1 blk2 blk3
  rw [dif_pos (lt_of_lt128 hn), dif_pos (lt_of_lt128 hn), dif_pos (lt_of_lt128 hn), dif_pos (lt_of_lt128 hn),
    dif_pos (lt_of_lt128 (by omega : n - 1 < 128))]
  exact (outsAt_final m c ⟨n, lt_of_lt128 hn⟩ h2).trans (finalOut_eq m c ⟨n, lt_of_lt128 hn⟩ h2 _ _ _)

/-- The input of the layer that starts at position `b`: the user tile, or what the layer before left. -/
def layerIn (b : ℕ) : Vec Ideal S2048x128 .f32 := if b % 32 = 0 then blk0 m c b else (st m c (b - 1)).1

/-- Key tile `t`'s absolute scores of row `r`, summed; and its scores weighted by the keys' lane `k`. -/
def tileAbs (o : Vec Ideal S2048x128 .f32) (sq : Vec Ideal S1024x128 .f32) (r : Fin 2048) : EReal :=
  ∑ q : Fin 1024, absE (k0_pay6 (F := Ideal) o sq (ix2 r q))
def tileMsg (o : Vec Ideal S2048x128 .f32) (sq : Vec Ideal S1024x128 .f32) (r : Fin 2048) (k : Fin 128) : EReal :=
  ∑ q : Fin 1024, k0_pay6 (F := Ideal) o sq (ix2 r q) * sq (ix2 q k)

/-- Within a layer: the output block keeps the input, the running sums are the sums over the tiles so far. -/
theorem layer_run (b : ℕ) (hb : b % 16 = 0) (hbN : b + 15 < 128) : ∀ j, j ≤ 14 →
    (st m c (b + j)).1 = layerIn m c b
    ∧ (∀ r k, (st m c (b + j)).2.1 (ix2 r k) = ∑ t ∈ Finset.range (j + 1), tileAbs (layerIn m c b) (blk1 m c (b + t)) r)
    ∧ (∀ r k, (st m c (b + j)).2.2 (ix2 r k) = ∑ t ∈ Finset.range (j + 1), tileMsg (layerIn m c b) (blk1 m c (b + t)) r k) := by
  intro j
  induction j with
  | zero =>
    intro _
    by_cases h0 : b % 32 = 0
    · rw [Nat.add_zero, st_first m c (by omega) h0]
      have hin : layerIn m c b = blk0 m c b := if_pos h0
      refine ⟨hin.symm, fun r k => ?_, fun r k => ?_⟩
      · show k0_pay7 _ _ _ (ix2 r k) = _
        rw [pay7_apply, pay2_apply, zero_add, Finset.sum_range_one, Nat.add_zero, hin]; rfl
      · show k0_pay8 _ _ _ (ix2 r k) = _
        rw [pay8_apply, pay3_apply, zero_add, Finset.sum_range_one, Nat.add_zero, hin]; rfl
    · rw [Nat.add_zero, st_reset m c (by omega) h0 hb]
      have hin : layerIn m c b = (st m c (b - 1)).1 := if_neg h0
      refine ⟨hin.symm, fun r k => ?_, fun r k => ?_⟩
      · show k0_pay7 _ _ _ (ix2 r k) = _
        rw [pay7_apply, pay2_apply, zero_add, Finset.sum_range_one, Nat.add_zero, hin]; rfl
      · show k0_pay8 _ _ _ (ix2 r k) = _
        rw [pay8_apply, pay3_apply, zero_add, Finset.sum_range_one, Nat.add_zero, hin]; rfl
  | succ j ih =>
    intro hj
    obtain ⟨ho, hA, hM⟩ := ih (by omega)
    have hst := st_accum m c (n := b + (j + 1)) (by omega) (by omega) (by omega)
    have hp : b + (j + 1) - 1 = b + j := by omega
    rw [hp] at hst
    rw [hst]
    refine ⟨ho, fun r k => ?_, fun r k => ?_⟩
    · show k0_pay7 _ _ _ (ix2 r k) = _
      rw [pay7_apply, hA r k, Finset.sum_range_succ _ (j + 1), ho]; rfl
    · show k0_pay8 _ _ _ (ix2 r k) = _
      rw [pay8_apply, hM r k, Finset.sum_range_succ _ (j + 1), ho]; rfl

/-- After the layer's last key tile the output block is the finished layer over the sums of all 16 tiles. -/
theorem layer_out (b : ℕ) (hb : b % 16 = 0) (hbN : b + 15 < 128) (r : Fin 2048) (d : Fin 128) :
    (st m c (b + 15)).1 (ix2 r d)
      = max ((layerIn m c b (ix2 r d)
          + ∑ k : Fin 128, Ideal.div (Ideal.div (∑ t ∈ Finset.range 16, tileMsg (layerIn m c b) (blk1 m c (b + t)) r k)
              (max (∑ t ∈ Finset.range 16, tileAbs (layerIn m c b) (blk1 m c (b + t)) r) εw)) Sw * blk2 m c (b + 15) (ix3 (0 : Fin 1) d k))
          + blk3 m c (b + 15) (ix3 (0 : Fin 1) (0 : Fin 1) d)) zw := by
  obtain ⟨ho, hA, hM⟩ := layer_run m c b hb hbN 14 (le_refl _)
  have hst := st_final m c (n := b + 15) hbN (by omega)
  have hp : b + 15 - 1 = b + 14 := by omega
  rw [hp] at hst
  rw [hst]
  show k0_pay1 _ _ _ _ _ (ix2 r d) = _
  rw [pay1_apply, pay4_eq, ho]
  refine congrArg₂ max (congrArg₂ (· + ·) (congrArg (_ + ·) (Finset.sum_congr rfl fun k _ => ?_)) rfl) rfl
  have e16 : ∀ f : ℕ → EReal, ∑ t ∈ Finset.range 16, f t = ∑ t ∈ Finset.range (14 + 1), f t + f 15 :=
    fun f => Finset.sum_range_succ f 15
  rw [pay8_apply, pay7_apply, hM r k, hA r k, e16, e16]
  rfl

end Cert.KernelIdeal.Stream

end
-- ==== Proof.KernelIdeal.Obligation.lean ====
/-
  The body obligation of the pipeline: at each of the four kinds of grid point the body's triple (found by running
  it) is applied to what the pipeline hands the body — the four input blocks, the output block as the point before
  left it (anything at a first point), the two running sums from the invariant — and what it returns is what the
  recursion says. Then the frame run and the frame.
-/
import proofs.«111034_j90718299226373_2_alg».proof.Proof.KernelIdeal.Body

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- A first point of a user tile. -/
theorem sound_first (c : Dev nD) (t : Fin cfg0.N) (h0 : t.val % 32 = 0) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4_first t ((isFirst_iff t).mpr h0)], after4]
  rw [outsAt_first m c t h0]
  unfold firstOut; (try dsimp only)
  by_cases hz : t.val = 0
  · rw [PhiS_castSucc m c t, PhiS_zero m c _ _ hz, PhiA_eq]
    iintro ⟨⟨⟨HA, HM⟩, Hg⟩, Ho, ⟨%d0, H0⟩, ⟨%d1, H1⟩, ⟨%d2, H2⟩, ⟨%d3, H3⟩, ⟨%d4, H4⟩⟩
    iapply ((firstRun m c t h0).2.2.2 Set.univ _)
    isplitl [H0]; · iexact H0
    isplitl [H1]; · iexact H1
    isplitl [H2]; · iexact H2
    isplitl [H3]; · iexact H3
    isplitl [H4]; · iexists _; iexact H4
    isplitl [HA]; · iexact HA
    isplitl [HM]; · iexact HM
    iintro ⟨H0, H1, H2, H3, ⟨%e4, H4⟩, ⟨%eA, HA⟩, ⟨%eM, HM⟩⟩
    isplitl [HA HM Hg]
    · isplitl [HA HM]
      · isplitl [HA]
        · unfold owns; iexists _; isplitr
          swap; · iexact HA
          ipureintro; exact View.read_writes_of_cover _ _ _ _ _ (firstCovA m c t h0)
        · unfold owns; iexists _; isplitr
          swap; · iexact HM
          ipureintro; exact View.read_writes_of_cover _ _ _ _ _ (firstCovM m c t h0)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (firstCov4 m c t h0)
  · rw [PhiS_castSucc m c t, PhiS_pos m c _ _ hz]
    iintro ⟨⟨⟨HA, HM⟩, Hg⟩, Ho, ⟨%d0, H0⟩, ⟨%d1, H1⟩, ⟨%d2, H2⟩, ⟨%d3, H3⟩, ⟨%d4, H4⟩⟩
    iapply ((firstRun m c t h0).2.2.2 Set.univ _)
    isplitl [H0]; · iexact H0
    isplitl [H1]; · iexact H1
    isplitl [H2]; · iexact H2
    isplitl [H3]; · iexact H3
    isplitl [H4]; · iexists _; iexact H4
    isplitl [HA]; · iexists _; iexact HA
    isplitl [HM]; · iexists _; iexact HM
    iintro ⟨H0, H1, H2, H3, ⟨%e4, H4⟩, ⟨%eA, HA⟩, ⟨%eM, HM⟩⟩
    isplitl [HA HM Hg]
    · isplitl [HA HM]
      · isplitl [HA]
        · unfold owns; iexists _; isplitr
          swap; · iexact HA
          ipureintro; exact View.read_writes_of_cover _ _ _ _ _ (firstCovA m c t h0)
        · unfold owns; iexists _; isplitr
          swap; · iexact HM
          ipureintro; exact View.read_writes_of_cover _ _ _ _ _ (firstCovM m c t h0)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (firstCov4 m c t h0)

set_option maxHeartbeats 4800000 in
/-- The second layer's first key tile. -/
theorem sound_reset (c : Dev nD) (t : Fin cfg0.N) (h0 : ¬t.val % 32 = 0) (h1 : t.val % 16 = 0) :
    bodyPre m c t ⊢ wp frame (wpE (defs₀ (F := F)) Variants.none c none) Set.univ (bodyAt0 t) (fun _ => bodyPost m c t) := by
  have hN : t.val < 128 := lt_of_lt_of_eq t.isLt (show cfg0.N = 128 from N_0)
  have hz : t.val ≠ 0 := fun h => h0 (by rw [h])
  have hnf : ¬isFirst (grid0.coords t) := fun hf => h0 ((isFirst_iff t).mp hf)
  have hnl : ¬isLast (grid0.coords t) := fun hl => by have := (isLast_iff t).mp hl; omega
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [Dat.leavesExact_idle (dats m 0 c) 4 t (idle4 t hnf hnl) (noFlush4 t hnl)]
  simp only [before4' m c t h0]
  rw [outsAt_reset m c t h0 h1]
  unfold resetOut; (try dsimp only)
  rw [PhiS_castSucc m c t, PhiS_pos m c _ _ hz]
  iintro ⟨⟨⟨HA, HM⟩, Hg⟩, Ho, ⟨%d0, H0⟩, ⟨%d1, H1⟩, ⟨%d2, H2⟩, ⟨%d3, H3⟩, ⟨%d4, H4⟩⟩
  iapply ((resetRun m c t h0 h1 (prev m c t).1).2.2 Set.univ _)
  isplitl [H0]; · iexact H0
  isplitl [H1]; · iexact H1
  isplitl [H2]; · iexact H2
  isplitl [H3]; · iexact H3
  isplitl [H4]; · iexact H4
  isplitl [HA]; · iexists _; iexact HA
  isplitl [HM]; · iexists _; iexact HM
  iintro ⟨H0, H1, H2, H3, H4, ⟨%eA, HA⟩, ⟨%eM, HM⟩⟩
  isplitl [HA HM Hg]
  · isplitl [HA HM]
    · isplitl [HA]
      · unfold owns; iexists _; isplitr
        swap; · iexact HA
        ipureintro; exact View.read_writes_of_cover _ _ _ _ _ (resetCovA m c t h0 h1 _)
      · unfold owns; iexists _; isplitr
        swap; · iexact HM
        ipureintro; exact View.read_writes_of_cover _ _ _ _ _ (resetCovM m c t h0 h1 _)
    iexact Hg
  isplitl [Ho]; · iexact Ho
  isplitl [H0]; · iexact H0
  isplitl [H1]; · iexact H1
  isplitl [H2]; · iexact H2
  isplitl [H3]; · iexact H3
  iexists d4; iexact H4

set_option maxHeartbeats 4800000 in
/-- A middle key tile. -/
theorem sound_accum (c : Dev nD) (t : Fin cfg0.N) (h1 : ¬t.val % 16 = 0) (h2 : ¬t.val % 16 = 15) :
    bodyPre m c t ⊢ wp frame (wpE (defs₀ (F := F)) Variants.none c none) Set.univ (bodyAt0 t) (fun _ => bodyPost m c t) := by
  have hN : t.val < 128 := lt_of_lt_of_eq t.isLt (show cfg0.N = 128 from N_0)
  have h0 : ¬t.val % 32 = 0 := fun h => h1 (by omega)
  have hz : t.val ≠ 0 := fun h => h0 (by rw [h])
  have hnf : ¬isFirst (grid0.coords t) := fun hf => h0 ((isFirst_iff t).mp hf)
  have hnl : ¬isLast (grid0.coords t) := fun hl => h2 ((isLast_iff t).mp hl)
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [Dat.leavesExact_idle (dats m 0 c) 4 t (idle4 t hnf hnl) (noFlush4 t hnl)]
  simp only [before4' m c t h0]
  rw [outsAt_accum m c t h1 h2]
  unfold accumOut; (try dsimp only)
  rw [PhiS_castSucc m c t, PhiS_pos m c _ _ hz]
  iintro ⟨⟨⟨HA, HM⟩, Hg⟩, Ho, ⟨%d0, H0⟩, ⟨%d1, H1⟩, ⟨%d2, H2⟩, ⟨%d3, H3⟩, ⟨%d4, H4⟩⟩
  iapply ((accumRun m c t h1 h2 (prev m c t).1 (prev m c t).2.1 (prev m c t).2.2).2.2 Set.univ _)
  isplitl [H0]; · iexact H0
  isplitl [H1]; · iexact H1
  isplitl [H2]; · iexact H2
  isplitl [H3]; · iexact H3
  isplitl [H4]; · iexact H4
  isplitl [HA]; · iexact HA
  isplitl [HM]; · iexact HM
  iintro ⟨H0, H1, H2, H3, H4, ⟨%eA, HA⟩, ⟨%eM, HM⟩⟩
  isplitl [HA HM Hg]
  · isplitl [HA HM]
    · isplitl [HA]
      · unfold owns; iexists _; isplitr
        swap; · iexact HA
        ipureintro; exact View.read_writes_of_cover _ _ _ _ _ (accumCovA m c t h1 h2 _ _ _)
      · unfold owns; iexists _; isplitr
        swap; · iexact HM
        ipureintro; exact View.read_writes_of_cover _ _ _ _ _ (accumCovM m c t h1 h2 _ _ _)
    iexact Hg
  isplitl [Ho]; · iexact Ho
  isplitl [H0]; · iexact H0
  isplitl [H1]; · iexact H1
  isplitl [H2]; · iexact H2
  isplitl [H3]; · iexact H3
  iexists d4; iexact H4

set_option maxHeartbeats 4800000 in
/-- A layer's last key tile. -/
theorem sound_final (c : Dev nD) (t : Fin cfg0.N) (h2 : t.val % 16 = 15) :
    bodyPre m c t ⊢ wp frame (wpE (defs₀ (F := F)) Variants.none c none) Set.univ (bodyAt0 t) (fun _ => bodyPost m c t) := by
  have hN : t.val < 128 := lt_of_lt_of_eq t.isLt (show cfg0.N = 128 from N_0)
  have h0 : ¬t.val % 32 = 0 := fun h => by omega
  have hz : t.val ≠ 0 := fun h => h0 (by rw [h])
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4_last t ((isLast_iff t).mpr h2)], after4]
  simp only [before4' m c t h0]
  rw [outsAt_final m c t h2]
  unfold finalOut; (try dsimp only)
  rw [PhiS_castSucc m c t, PhiS_pos m c _ _ hz]
  iintro ⟨⟨⟨HA, HM⟩, Hg⟩, Ho, ⟨%d0, H0⟩, ⟨%d1, H1⟩, ⟨%d2, H2⟩, ⟨%d3, H3⟩, ⟨%d4, H4⟩⟩
  iapply ((finalRun m c t h2 (prev m c t).1 (prev m c t).2.1 (prev m c t).2.2).2.2.2 Set.univ _)
  isplitl [H0]; · iexact H0
  isplitl [H1]; · iexact H1
  isplitl [H2]; · iexact H2
  isplitl [H3]; · iexact H3
  isplitl [H4]; · iexact H4
  isplitl [HA]; · iexact HA
  isplitl [HM]; · iexact HM
  iintro ⟨H0, H1, H2, H3, ⟨%e4, H4⟩, ⟨%eA, HA⟩, ⟨%eM, HM⟩⟩
  isplitl [HA HM Hg]
  · isplitl [HA HM]
    · isplitl [HA]
      · unfold owns; iexists _; isplitr
        swap; · iexact HA
        ipureintro; exact View.read_writes_of_cover _ _ _ _ _ (finalCovA m c t h2 _ _ _)
      · unfold owns; iexists _; isplitr
        swap; · iexact HM
        ipureintro; exact View.read_writes_of_cover _ _ _ _ _ (finalCovM m c t h2 _ _ _)
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (finalCov4 m c t h2 _ _ _)

theorem sound_body (c : Dev nD) (t : Fin cfg0.N) :
    bodyPre m c t ⊢ wp frame (wpE (defs₀ (F := F)) Variants.none c none) Set.univ (bodyAt0 t) (fun _ => bodyPost m c t) := by
  by_cases h0 : t.val % 32 = 0
  · exact sound_first m c t h0
  · by_cases h1 : t.val % 16 = 0
    · exact sound_reset m c t h0 h1
    · by_cases h2 : t.val % 16 = 15
      · exact sound_final m c t h2
      · exact sound_accum m c t h1 h2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class invariant back: the running sums' contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HA, HM⟩, Hg⟩
  isplitl [HA HM]
  · isplitl [HA]
    · iexists _; iexact HA
    · iexists _; iexact HM
  iexact Hg

theorem hout (c : Dev nD) : (dats m 0 c).Φ (Fin.last cfg0.N) ⊢ Pipeline.ΦA spec0 c :=
  Phi_out m c _ (by rw [Fin.val_last]; have : cfg0.N = 128 := N_0; omega)

set_option backward.isDefEq.respectTransparency.types false in
/-- The frame run: every weakly fair execution of @main terminates, faults nowhere, and ends with every array of
    the pipeline at what the library computes from the proof data. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.EpsPos.lean ====
/-
  The clamp of the normaliser, the f32 word `0x2B8CBCCC` (about 1e-12), denotes a positive real: a normal number with
  sign bit 0, so `(2^23 + fraction) · 2^(exponent - 150)`. Nothing else of the literal is used: both programs read the
  same word, and the law that joins them only needs the normaliser to be positive.
-/
import Idealize.ShloMosaic.PureOps.Ideal.Laws

set_option maxRecDepth 16384

open Idealize.ShloMosaic

namespace Cert.RowLayer

theorem eps_pos : (0 : EReal) < Ideal.ofBits .f32 0x2B8CBCCC#32 := by
  simp [Ideal.ofBits, Ideal.ieee]
  rw [← EReal.coe_mul]
  exact EReal.coe_pos.mpr (by positivity)

end Cert.RowLayer
-- ==== Proof.KernelIdeal.KernelValue.lean ====
/-
  The kernel's result array at the ideal instance. A window's block at position `n = 32·ui + 16·l + si` is read off
  its array where the window's index map says — user rows `2048·ui + r`, keys `1024·si + q`, the weights and the bias
  of layer `l` — so the sums over a layer's 16 key tiles are the sums over all 16384 keys, the output block after a
  layer's last key tile is the (streamed) row layer of each row of the layer's input, and after the second layer the
  block written back for user tile `ui` is rows `2048·ui …` of ONE function of the argument arrays: the row layer of
  the row layer of the user's row. The four write-backs cover the array.
-/
import proofs.«111034_j90718299226373_2_alg».proof.Proof.KernelIdeal.Stream
import proofs.«111034_j90718299226373_2_alg».proof.Proof.KernelIdeal.Obligation
import proofs.«111034_j90718299226373_2_alg».proof.Proof.EpsPos
import Idealize.ShloMosaic.Lib.StableHlo.Run

set_option maxRecDepth 16384

noncomputable section

open scoped BigOperators

namespace Cert.KernelIdeal.Stream

open Cert.KernelIdeal Cert.KernelIdeal.Gen Cert.KernelIdeal.Body Cert.KernelIdeal.Pay Cert.RowLayer
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (c : Dev nD)

/-- The argument arrays, by coordinates. -/
abbrev user (p : Fin 8192) (k : Fin 128) : EReal := m ((c : Thread nD τ).loc main_arg0) (ix2 p k)
abbrev keys (s : Fin 16384) (k : Fin 128) : EReal := m ((c : Thread nD τ).loc main_arg1) (ix2 s k)
abbrev wgt (l : Fin 2) (d k : Fin 128) : EReal := m ((c : Thread nD τ).loc main_arg2) (ix3 l d k)
abbrev bias (l : Fin 2) (d : Fin 128) : EReal := m ((c : Thread nD τ).loc main_arg3) (ix2 l d)

/-- The printed index maps, decided over the grid. -/
theorem idx_facts : ∀ t : Fin cfg0.N,
    win0_0.index t (0 : Fin 2) = t.val / 32 ∧ win0_0.index t (1 : Fin 2) = 0
    ∧ win0_1.index t (0 : Fin 2) = t.val % 16 ∧ win0_1.index t (1 : Fin 2) = 0
    ∧ win0_2.index t (0 : Fin 3) = t.val / 16 % 2 ∧ win0_2.index t (1 : Fin 3) = 0 ∧ win0_2.index t (2 : Fin 3) = 0
    ∧ win0_3.index t (0 : Fin 3) = t.val / 16 % 2 ∧ win0_3.index t (1 : Fin 3) = 0 ∧ win0_3.index t (2 : Fin 3) = 0
    ∧ win0_4.index t (0 : Fin 2) = t.val / 32 ∧ win0_4.index t (1 : Fin 2) = 0 :=
  (by decide +kernel : ∀ t : Fin grid0.N, _)

/-! ## The blocks, read off the arrays -/

theorem iblk0_apply (t : Fin cfg0.N) (r : Fin 2048) (k : Fin 128) (p : Fin 8192) (hp : p.val = 2048 * (t.val / 32) + r.val) :
    iblk m c 0 t (ix2 r k) = user m c p k := by
  unfold iblk
  rw [View.read_apply]
  show V m c main_arg0 _ = _
  rw [V_main_arg0]
  obtain ⟨e0, e1, -⟩ := idx_facts t
  refine congrArg _ (funext fun a => Fin.ext ?_)
  match a with
  | ⟨0, _⟩ => show win0_0.index t (0 : Fin 2) * 2048 + 1 * r.val = p.val; rw [e0, hp]; omega
  | ⟨1, _⟩ => show win0_0.index t (1 : Fin 2) * 128 + 1 * k.val = k.val; rw [e1]; omega

theorem iblk1_apply (t : Fin cfg0.N) (q : Fin 1024) (k : Fin 128) (s : Fin 16384) (hs : s.val = 1024 * (t.val % 16) + q.val) :
    iblk m c 1 t (ix2 q k) = keys m c s k := by
  unfold iblk
  rw [View.read_apply]
  show V m c main_arg1 _ = _
  rw [V_main_arg1]
  obtain ⟨-, -, e0, e1, -⟩ := idx_facts t
  refine congrArg _ (funext fun a => Fin.ext ?_)
  match a with
  | ⟨0, _⟩ => show win0_1.index t (0 : Fin 2) * 1024 + 1 * q.val = s.val; rw [e0, hs]; omega
  | ⟨1, _⟩ => show win0_1.index t (1 : Fin 2) * 128 + 1 * k.val = k.val; rw [e1]; omega

theorem iblk2_apply (t : Fin cfg0.N) (d k : Fin 128) (l : Fin 2) (hl : l.val = t.val / 16 % 2) :
    iblk m c 2 t (ix3 (0 : Fin 1) d k) = wgt m c l d k := by
  unfold iblk
  rw [View.read_apply]
  show V m c main_arg2 _ = _
  rw [V_main_arg2]
  obtain ⟨-, -, -, -, e0, e1, e2, -⟩ := idx_facts t
  refine congrArg _ (funext fun a => Fin.ext ?_)
  match a with
  | ⟨0, _⟩ => show win0_2.index t (0 : Fin 3) * 1 + 1 * 0 = l.val; rw [e0, hl]; omega
  | ⟨1, _⟩ => show win0_2.index t (1 : Fin 3) * 128 + 1 * d.val = d.val; rw [e1]; omega
  | ⟨2, _⟩ => show win0_2.index t (2 : Fin 3) * 128 + 1 * k.val = k.val; rw [e2]; omega

/-- The bias reaches the kernel reshaped to `[2, 1, 128]` by the host. -/
theorem V_bias : (V m c main_v0 : S2x1x128.Idx → EReal)
    = shapeCast S2x1x128 (m ((c : Thread nD τ).loc main_arg3)) shapeCasts_S2x128_S2x1x128 := by
  dsimp only [Gen.V, Gen.hostOps0]; after_results; rfl

theorem iblk3_apply (t : Fin cfg0.N) (d : Fin 128) (l : Fin 2) (hl : l.val = t.val / 16 % 2) :
    iblk m c 3 t (ix3 (0 : Fin 1) (0 : Fin 1) d) = bias m c l d := by
  unfold iblk
  rw [View.read_apply]
  show (V m c main_v0 : S2x1x128.Idx → EReal) _ = _
  rw [V_bias]
  obtain ⟨-, -, -, -, -, -, -, e0, e1, e2, -⟩ := idx_facts t
  refine shapeCast_apply _ _ _ (ix2 l d) ?_
  rw [Shape.rowMajor_val_two, Shape.rowMajor_val_three]
  show l.val * 128 + d.val = ((win0_3.index t (0 : Fin 3) * 1 + 1 * 0) * 1 + (win0_3.index t (1 : Fin 3) * 1 + 1 * 0)) * 128 + (win0_3.index t (2 : Fin 3) * 128 + 1 * d.val)
  rw [e0, e1, e2, hl]; omega

/-! ## The sums over a layer's 16 key tiles are the sums over all keys -/

theorem blk1_apply (b : ℕ) (hb : b % 16 = 0) (hbN : b + 15 < 128) (i : Fin 16) (q : Fin 1024) (k : Fin 128) :
    blk1 m c (b + i.val) (ix2 q k) = keys m c (keyIx i q) k := by
  have hi := i.isLt
  unfold blk1
  rw [dif_pos (lt_of_lt128 (by omega))]
  exact iblk1_apply m c ⟨b + i.val, _⟩ q k (keyIx i q) (by show 1024 * i.val + q.val = 1024 * ((b + i.val) % 16) + q.val; omega)

theorem pay6_tile (b : ℕ) (hb : b % 16 = 0) (hbN : b + 15 < 128) (o : Vec Ideal S2048x128 .f32) (r : Fin 2048) (i : Fin 16) (q : Fin 1024) :
    k0_pay6 (F := Ideal) o (blk1 m c (b + i.val)) (ix2 r q) = score (fun k => o (ix2 r k)) (keys m c) (keyIx i q) := by
  rw [pay6_apply]
  unfold score
  exact Finset.sum_congr rfl fun k _ => by rw [blk1_apply m c b hb hbN i q k]

theorem tiles_msg (b : ℕ) (hb : b % 16 = 0) (hbN : b + 15 < 128) (o : Vec Ideal S2048x128 .f32) (r : Fin 2048) (k : Fin 128) :
    ∑ t ∈ Finset.range 16, tileMsg o (blk1 m c (b + t)) r k = ∑ s, score (fun k => o (ix2 r k)) (keys m c) s * keys m c s k := by
  rw [sum_tiles, Finset.sum_range (fun t => tileMsg o (blk1 m c (b + t)) r k)]
  refine Finset.sum_congr rfl fun i _ => ?_
  unfold tileMsg
  exact Finset.sum_congr rfl fun q _ => by rw [pay6_tile m c b hb hbN o r i q, blk1_apply m c b hb hbN i q k]

theorem tiles_abs (b : ℕ) (hb : b % 16 = 0) (hbN : b + 15 < 128) (o : Vec Ideal S2048x128 .f32) (r : Fin 2048) :
    ∑ t ∈ Finset.range 16, tileAbs o (blk1 m c (b + t)) r = ∑ s, absE (score (fun k => o (ix2 r k)) (keys m c) s) := by
  rw [sum_tiles, Finset.sum_range (fun t => tileAbs o (blk1 m c (b + t)) r)]
  refine Finset.sum_congr rfl fun i _ => ?_
  unfold tileAbs
  exact Finset.sum_congr rfl fun q _ => by rw [pay6_tile m c b hb hbN o r i q]

/-! ## A layer, and the two layers of a user tile -/

/-- After a layer's last key tile the output block is the row layer (streamed arrangement) of each row of its input. -/
theorem tile_layer (b : ℕ) (hb : b % 16 = 0) (hbN : b + 15 < 128) (l : Fin 2) (hl : l.val = b / 16 % 2) (r : Fin 2048) (d : Fin 128) :
    (st m c (b + 15)).1 (ix2 r d)
      = layerStreamed εw Sw zw (fun k => layerIn m c b (ix2 r k)) (keys m c) (wgt m c l) (bias m c l) d := by
  rw [layer_out m c b hb hbN r d]
  unfold layerStreamed nrm
  have h2 : ∀ k, blk2 m c (b + 15) (ix3 (0 : Fin 1) d k) = wgt m c l d k := fun k => by
    unfold blk2; rw [dif_pos (lt_of_lt128 hbN)]
    exact iblk2_apply m c ⟨b + 15, _⟩ d k l (by show l.val = (b + 15) / 16 % 2; omega)
  have h3 : blk3 m c (b + 15) (ix3 (0 : Fin 1) (0 : Fin 1) d) = bias m c l d := by
    unfold blk3; rw [dif_pos (lt_of_lt128 hbN)]
    exact iblk3_apply m c ⟨b + 15, _⟩ d l (by show l.val = (b + 15) / 16 % 2; omega)
  rw [h3, tiles_abs m c b hb hbN]
  refine congrArg₂ max (congrArg₂ (· + ·) (congrArg (_ + ·) (Finset.sum_congr rfl fun k _ => ?_)) rfl) rfl
  rw [h2 k, tiles_msg m c b hb hbN]

/-- The result's row `p`: the row layer, with layer 1's weights, of the row layer, with layer 0's, of the user's row. -/
def rowOut (p : Fin 8192) (d : Fin 128) : EReal :=
  layer εw Sw zw (fun k => layer εw Sw zw (user m c p) (keys m c) (wgt m c 0) (bias m c 0) k) (keys m c) (wgt m c 1) (bias m c 1) d

/-- After the last position of user tile `ui` the output block holds rows `2048·ui …` of the result. -/
theorem tile_out (ui : ℕ) (hui : ui < 4) (r : Fin 2048) (d : Fin 128) (p : Fin 8192) (hp : p.val = 2048 * ui + r.val) :
    (st m c (32 * ui + 31)).1 (ix2 r d) = rowOut m c p d := by
  have hr := r.isLt
  -- layer 0
  have h0 : ∀ k, (st m c (32 * ui + 15)).1 (ix2 r k) = layer εw Sw zw (user m c p) (keys m c) (wgt m c 0) (bias m c 0) k := fun k => by
    rw [tile_layer m c (32 * ui) (by omega) (by omega) 0 (by show 0 = 32 * ui / 16 % 2; omega) r k, layerStreamed_eq _ _ _ eps_pos]
    have hin : layerIn m c (32 * ui) = blk0 m c (32 * ui) := if_pos (by omega)
    refine congrArg (fun x => layer εw Sw zw x (keys m c) (wgt m c 0) (bias m c 0) k) (funext fun k' => ?_)
    rw [hin]
    unfold blk0; rw [dif_pos (lt_of_lt128 (by omega))]
    exact iblk0_apply m c ⟨32 * ui, _⟩ r k' p (by show p.val = 2048 * (32 * ui / 32) + r.val; rw [hp]; omega)
  -- layer 1
  have e31 : 32 * ui + 31 = (32 * ui + 16) + 15 := by omega
  rw [e31, tile_layer m c (32 * ui + 16) (by omega) (by omega) 1 (by show 1 = (32 * ui + 16) / 16 % 2; omega) r d, layerStreamed_eq _ _ _ eps_pos]
  have hin : layerIn m c (32 * ui + 16) = (st m c (32 * ui + 15)).1 := by
    unfold layerIn; rw [if_neg (by omega)]; rfl
  unfold rowOut
  refine congrArg (fun x => layer εw Sw zw x (keys m c) (wgt m c 1) (bias m c 1) d) (funext fun k => ?_)
  rw [hin]
  exact h0 k

/-! ## The result array -/

/-- The result as contents of the result array. -/
def G : Buf (Elt Ideal) ((c : Thread nD τ).loc main_v1) :=
  fun i => rowOut m c ⟨(i 0).val, (i 0).isLt⟩ ⟨(i 1).val, (i 1).isLt⟩

theorem G_apply (p : Fin 8192) (d : Fin 128) : G m c (ix2 p d) = rowOut m c p d := rfl

/-- What a writing-back position writes back is its block of the result. -/
theorem flushed_eq (t : Fin cfg0.N) (hf : (cfg0.win 4).flush t = true) :
    (dats m 0 c).flushed 4 t = ((cfg0.win 4).blk t).view.read (Elt Ideal) (G m c) := by
  have h31 : t.val % 32 = 31 := (flush0_4 t).mp hf
  have hN : t.val < 128 := lt_of_lt_of_eq t.isLt N_0
  show (cfg0.win 4).cut (grid0.coords t) ((dats m 0 c).after 4 t) = _
  rw [after4]
  have hst : outsAt m c t.val t.isLt = st m c t.val := by unfold st; rw [dif_pos t.isLt]
  rw [hst]
  funext j
  obtain ⟨r, d, rfl⟩ : ∃ (r : Fin 2048) (d : Fin 128), j = ix2 r d := ⟨j 0, j 1, eq_ix2 j⟩
  have hr := r.isLt
  rw [View.read_apply]
  show (st m c t.val).1 (ix2 r d) = G m c (((cfg0.win 4).blk t).view.emb (ix2 r d))
  have hemb : ((cfg0.win 4).blk t).view.emb (ix2 r d) = ix2 (⟨2048 * (t.val / 32) + r.val, by omega⟩ : Fin 8192) d := by
    obtain ⟨-, -, -, -, -, -, -, -, -, -, e0, e1⟩ := idx_facts t
    funext a; apply Fin.ext
    match a with
    | ⟨0, _⟩ => show win0_4.index t (0 : Fin 2) * 2048 + 1 * r.val = 2048 * (t.val / 32) + r.val; rw [e0]; omega
    | ⟨1, _⟩ => show win0_4.index t (1 : Fin 2) * 128 + 1 * d.val = d.val; rw [e1]; omega
  rw [hemb, G_apply]
  have key := tile_out m c (t.val / 32) (by omega) r d ⟨2048 * (t.val / 32) + r.val, by omega⟩ rfl
  have e : 32 * (t.val / 32) + 31 = t.val := by omega
  rw [e] at key
  exact key

theorem mem_blk4 (t : Fin cfg0.N) (i : S8192x128.Idx) :
    i ∈ ((cfg0.win 4).blk t).view.set ↔ ∀ a : Fin 2, win0_4.index t a * S2048x128.size a ≤ (i a).val ∧ (i a).val < win0_4.index t a * S2048x128.size a + S2048x128.size a := by
  show i ∈ ((View.whole main_v1).slice (win0_4.rect t)).set ↔ _
  rw [View.set_slice_whole, Rect.mem_set_unit]
  exact Iff.rfl

/-- The four write-backs cover the array, so it ends holding the result. -/
theorem final : (dats m 0 c).arrAt 4 cfg0.N = G m c :=
  (dats m 0 c).arrAt_eq_of_cover 4 (G m c) (flushed_eq m c) fun i => by
    have hi0 : (i 0).val < 8192 := (i 0).isLt
    have hi1 : (i 1).val < 128 := (i 1).isLt
    have hlt : 32 * ((i 0).val / 2048) + 31 < cfg0.N := lt_of_lt128 (by omega)
    refine ⟨⟨32 * ((i 0).val / 2048) + 31, hlt⟩, (flush0_4 _).mpr (by show (32 * ((i 0).val / 2048) + 31) % 32 = 31; omega), ?_⟩
    rw [mem_blk4]
    obtain ⟨-, -, -, -, -, -, -, -, -, -, e0, e1⟩ := idx_facts ⟨32 * ((i 0).val / 2048) + 31, hlt⟩
    intro a
    match a with
    | ⟨0, _⟩ =>
      show win0_4.index _ (0 : Fin 2) * 2048 ≤ (i 0).val ∧ (i 0).val < win0_4.index _ (0 : Fin 2) * 2048 + 2048
      rw [e0]; show (32 * ((i 0).val / 2048) + 31) / 32 * 2048 ≤ (i 0).val ∧ (i 0).val < (32 * ((i 0).val / 2048) + 31) / 32 * 2048 + 2048
      omega
    | ⟨1, _⟩ =>
      show win0_4.index _ (1 : Fin 2) * 128 ≤ (i 1).val ∧ (i 1).val < win0_4.index _ (1 : Fin 2) * 128 + 128
      rw [e1]; omega

/-- The run, read: the result array at the result, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v1) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 4).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩)
    (run_main m ρ)

end Cert.KernelIdeal.Stream

end
-- ==== Proof.RefLayers.lean ====
/-
  The reference, read at an index. Each of its two layers, at `(p, d)`, is the row layer (RowLayer.lean) of row `p`
  of the layer's input: the scores are the host's product with the transposed keys, the normaliser the host's sum of
  their absolute values clamped from below, each score is divided by it, the message is the host's product with the
  keys divided by the number of keys, and the dense layer, the residual, the bias and the rectifier follow.
  The second layer's input is the first layer's result.
-/
import proofs.«111034_j90718299226373_2_alg».proof.Proof.Gen.ReferenceIdeal.Read
import proofs.«111034_j90718299226373_2_alg».proof.Proof.RowLayer
import Idealize.ShloMosaic.Lib.ValueIdx

set_option maxRecDepth 16384

noncomputable section

open scoped BigOperators

namespace Cert.ReferenceIdeal.RefValue

open Cert.ReferenceIdeal Cert.ReferenceIdeal.Gen Cert.RowLayer
open Idealize.ShloMosaic Idealize.ShloMosaic.ValueIdx

abbrev εw : EReal := Ideal.ofBits .f32 0x2B8CBCCC#32
abbrev Sw : EReal := Ideal.ofBits .f32 0x46800000#32
abbrev zw : EReal := Ideal.ofBits .f32 0x00000000#32

/-- The keys, by key and lane. -/
abbrev keys (x1 : (⟨S16384x128, .f32⟩ : BufTy).Contents (Elt Ideal)) : Fin 16384 → Fin 128 → EReal := fun s k => x1 (ix2 s k)

/-! ## Layer 0 of the reference -/

/-- The input of layer 0, row `p`. -/
abbrev row0 (x0 : (⟨S8192x128, .f32⟩ : BufTy).Contents (Elt Ideal)) (x1 : (⟨S16384x128, .f32⟩ : BufTy).Contents (Elt Ideal)) (x2 : (⟨S2x128x128, .f32⟩ : BufTy).Contents (Elt Ideal)) (x3 : (⟨S2x128, .f32⟩ : BufTy).Contents (Elt Ideal)) (p : Fin 8192) : Fin 128 → EReal := fun k => x0 (ix2 p k)

theorem score0 (x0 : (⟨S8192x128, .f32⟩ : BufTy).Contents (Elt Ideal)) (x1 : (⟨S16384x128, .f32⟩ : BufTy).Contents (Elt Ideal)) (x2 : (⟨S2x128x128, .f32⟩ : BufTy).Contents (Elt Ideal)) (x3 : (⟨S2x128, .f32⟩ : BufTy).Contents (Elt Ideal)) (p : Fin 8192) (s : Fin 16384) :
    Read.val_main_v1 (F := Ideal) x0 x1 (ix2 p s) = score (row0 x0 x1 x2 x3 p) (keys x1) s := by
  rw [Read.val_main_v1_apply]
  unfold score
  refine Finset.sum_congr rfl fun k _ => ?_
  rw [Read.val_main_v0_apply]
  refine congrArg₂ (· * ·) (congrArg _ (funext fun a => Fin.ext (by match a with | ⟨0, _⟩ => rfl | ⟨1, _⟩ => rfl)))
    (congrArg x1 (funext fun a => Fin.ext (by match a with | ⟨0, _⟩ => rfl | ⟨1, _⟩ => rfl)))

theorem nrm0 (x0 : (⟨S8192x128, .f32⟩ : BufTy).Contents (Elt Ideal)) (x1 : (⟨S16384x128, .f32⟩ : BufTy).Contents (Elt Ideal)) (x2 : (⟨S2x128x128, .f32⟩ : BufTy).Contents (Elt Ideal)) (x3 : (⟨S2x128, .f32⟩ : BufTy).Contents (Elt Ideal)) (p : Fin 8192) (u : Fin 1) :
    Read.val_main_v6 (F := Ideal) x0 x1 (ix2 p u) = nrm εw (row0 x0 x1 x2 x3 p) (keys x1) := by
  rw [Read.val_main_v6_apply, Read.val_main_v4_apply, Read.val_main_v3_apply, Read.val_main_v5_apply]
  unfold nrm
  refine congrArg₂ max ?_ rfl
  rw [show Read.val_main_cst (F := Ideal) (Shape.Idx.first h_S_) = 0 from Ideal.ofBits_zero_f32, zero_add]
  refine Finset.sum_congr rfl fun s _ => ?_
  rw [Read.val_main_v2_apply]
  show absE _ = _
  refine congrArg absE ?_
  exact (congrArg (Read.val_main_v1 (F := Ideal) x0 x1) (funext fun a => Fin.ext (by match a with | ⟨0, _⟩ => rfl | ⟨1, _⟩ => rfl))).trans
    (score0 x0 x1 x2 x3 p s)

theorem msg0 (x0 : (⟨S8192x128, .f32⟩ : BufTy).Contents (Elt Ideal)) (x1 : (⟨S16384x128, .f32⟩ : BufTy).Contents (Elt Ideal)) (x2 : (⟨S2x128x128, .f32⟩ : BufTy).Contents (Elt Ideal)) (x3 : (⟨S2x128, .f32⟩ : BufTy).Contents (Elt Ideal)) (p : Fin 8192) (k : Fin 128) :
    Read.val_main_v11 (F := Ideal) x0 x1 (ix2 p k)
      = Ideal.div (∑ s, Ideal.div (score (row0 x0 x1 x2 x3 p) (keys x1) s) (nrm εw (row0 x0 x1 x2 x3 p) (keys x1)) * keys x1 s k) Sw := by
  rw [Read.val_main_v11_apply, Read.val_main_v10_apply, Read.val_main_v9_apply]
  refine congrArg₂ Ideal.div (Finset.sum_congr rfl fun s _ => ?_) rfl
  rw [Read.val_main_v8_apply, Read.val_main_v7_apply]
  refine congrArg₂ (· * ·) (congrArg₂ Ideal.div ?_ ?_) (congrArg x1 (funext fun a => Fin.ext (by match a with | ⟨0, _⟩ => rfl | ⟨1, _⟩ => rfl)))
  · exact (congrArg (Read.val_main_v1 (F := Ideal) x0 x1) (funext fun a => Fin.ext (by match a with | ⟨0, _⟩ => rfl | ⟨1, _⟩ => rfl))).trans
      (score0 x0 x1 x2 x3 p s)
  · exact (congrArg (Read.val_main_v6 (F := Ideal) x0 x1) (funext fun a => Fin.ext (by match a with | ⟨0, _⟩ => rfl | ⟨1, _⟩ => rfl))).trans
      (nrm0 x0 x1 x2 x3 p (0 : Fin 1))

theorem weight0 (x2 : (⟨S2x128x128, .f32⟩ : BufTy).Contents (Elt Ideal)) (k d : Fin 128) :
    Read.val_main_v14 (F := Ideal) x2 (ix2 k d) = x2 (ix3 (0 : Fin 2) d k) := by
  rw [Read.val_main_v14_apply, Read.val_main_v13_apply, Read.val_main_v12_apply]
  refine congrArg x2 (funext fun a => Fin.ext ?_)
  have hk := k.isLt
  have hd := d.isLt
  match a with
  | ⟨0, _⟩ => rfl
  | ⟨1, _⟩ => show (d.val * 128 + k.val) / 128 % 128 = d.val; omega
  | ⟨2, _⟩ => show (d.val * 128 + k.val) % 128 = k.val; omega

theorem bias0 (x3 : (⟨S2x128, .f32⟩ : BufTy).Contents (Elt Ideal)) (p : Fin 8192) (d : Fin 128) :
    Read.val_main_v20 (F := Ideal) x3 (ix2 p d) = x3 (ix2 (0 : Fin 2) d) := by
  rw [Read.val_main_v20_apply, Read.val_main_v19_apply, Read.val_main_v18_apply, Read.val_main_v17_apply]
  refine congrArg x3 (funext fun a => Fin.ext ?_)
  have hd := d.isLt
  match a with
  | ⟨0, _⟩ => rfl
  | ⟨1, _⟩ => exact Nat.mod_eq_of_lt hd

/-- Layer 0 of the reference at `(p, d)` is the row layer of row `p` of its input. -/
theorem layer0_apply (x0 : (⟨S8192x128, .f32⟩ : BufTy).Contents (Elt Ideal)) (x1 : (⟨S16384x128, .f32⟩ : BufTy).Contents (Elt Ideal)) (x2 : (⟨S2x128x128, .f32⟩ : BufTy).Contents (Elt Ideal)) (x3 : (⟨S2x128, .f32⟩ : BufTy).Contents (Elt Ideal)) (p : Fin 8192) (d : Fin 128) :
    Read.val_main_v22 (F := Ideal) x0 x1 x2 x3 (ix2 p d)
      = layer εw Sw zw (row0 x0 x1 x2 x3 p) (keys x1) (fun d k => x2 (ix3 (0 : Fin 2) d k)) (fun d => x3 (ix2 (0 : Fin 2) d)) d := by
  rw [Read.val_main_v22_apply, Read.val_main_call0_v0_apply, Read.val_main_v21_apply, Read.val_main_v16_apply, Read.val_main_v15_apply]
  unfold layer
  refine congrArg₂ max (congrArg₂ (· + ·) (congrArg₂ (· + ·) rfl (Finset.sum_congr rfl fun k _ => ?_)) (bias0 x3 p d)) rfl
  refine congrArg₂ (· * ·) ?_ ?_
  · exact (congrArg (Read.val_main_v11 (F := Ideal) x0 x1) (funext fun a => Fin.ext (by match a with | ⟨0, _⟩ => rfl | ⟨1, _⟩ => rfl))).trans
      (msg0 x0 x1 x2 x3 p k)
  · exact (congrArg (Read.val_main_v14 (F := Ideal) x2) (funext fun a => Fin.ext (by match a with | ⟨0, _⟩ => rfl | ⟨1, _⟩ => rfl))).trans
      (weight0 x2 k d)

/-! ## Layer 1 of the reference -/

/-- The input of layer 1, row `p`. -/
abbrev row1 (x0 : (⟨S8192x128, .f32⟩ : BufTy).Contents (Elt Ideal)) (x1 : (⟨S16384x128, .f32⟩ : BufTy).Contents (Elt Ideal)) (x2 : (⟨S2x128x128, .f32⟩ : BufTy).Contents (Elt Ideal)) (x3 : (⟨S2x128, .f32⟩ : BufTy).Contents (Elt Ideal)) (p : Fin 8192) : Fin 128 → EReal := fun k => (Read.val_main_v22 (F := Ideal) x0 x1 x2 x3) (ix2 p k)

theorem score1 (x0 : (⟨S8192x128, .f32⟩ : BufTy).Contents (Elt Ideal)) (x1 : (⟨S16384x128, .f32⟩ : BufTy).Contents (Elt Ideal)) (x2 : (⟨S2x128x128, .f32⟩ : BufTy).Contents (Elt Ideal)) (x3 : (⟨S2x128, .f32⟩ : BufTy).Contents (Elt Ideal)) (p : Fin 8192) (s : Fin 16384) :
    Read.val_main_v24 (F := Ideal) x0 x1 x2 x3 (ix2 p s) = score (row1 x0 x1 x2 x3 p) (keys x1) s := by
  rw [Read.val_main_v24_apply]
  unfold score
  refine Finset.sum_congr rfl fun k _ => ?_
  rw [Read.val_main_v23_apply]
  refine congrArg₂ (· * ·) (congrArg _ (funext fun a => Fin.ext (by match a with | ⟨0, _⟩ => rfl | ⟨1, _⟩ => rfl)))
    (congrArg x1 (funext fun a => Fin.ext (by match a with | ⟨0, _⟩ => rfl | ⟨1, _⟩ => rfl)))

theorem nrm1 (x0 : (⟨S8192x128, .f32⟩ : BufTy).Contents (Elt Ideal)) (x1 : (⟨S16384x128, .f32⟩ : BufTy).Contents (Elt Ideal)) (x2 : (⟨S2x128x128, .f32⟩ : BufTy).Contents (Elt Ideal)) (x3 : (⟨S2x128, .f32⟩ : BufTy).Contents (Elt Ideal)) (p : Fin 8192) (u : Fin 1) :
    Read.val_main_v29 (F := Ideal) x0 x1 x2 x3 (ix2 p u) = nrm εw (row1 x0 x1 x2 x3 p) (keys x1) := by
  rw [Read.val_main_v29_apply, Read.val_main_v27_apply, Read.val_main_v26_apply, Read.val_main_v28_apply]
  unfold nrm
  refine congrArg₂ max ?_ rfl
  rw [show Read.val_main_cst_2 (F := Ideal) (Shape.Idx.first h_S_) = 0 from Ideal.ofBits_zero_f32, zero_add]
  refine Finset.sum_congr rfl fun s _ => ?_
  rw [Read.val_main_v25_apply]
  show absE _ = _
  refine congrArg absE ?_
  exact (congrArg (Read.val_main_v24 (F := Ideal) x0 x1 x2 x3) (funext fun a => Fin.ext (by match a with | ⟨0, _⟩ => rfl | ⟨1, _⟩ => rfl))).trans
    (score1 x0 x1 x2 x3 p s)

theorem msg1 (x0 : (⟨S8192x128, .f32⟩ : BufTy).Contents (Elt Ideal)) (x1 : (⟨S16384x128, .f32⟩ : BufTy).Contents (Elt Ideal)) (x2 : (⟨S2x128x128, .f32⟩ : BufTy).Contents (Elt Ideal)) (x3 : (⟨S2x128, .f32⟩ : BufTy).Contents (Elt Ideal)) (p : Fin 8192) (k : Fin 128) :
    Read.val_main_v34 (F := Ideal) x0 x1 x2 x3 (ix2 p k)
      = Ideal.div (∑ s, Ideal.div (score (row1 x0 x1 x2 x3 p) (keys x1) s) (nrm εw (row1 x0 x1 x2 x3 p) (keys x1)) * keys x1 s k) Sw := by
  rw [Read.val_main_v34_apply, Read.val_main_v33_apply, Read.val_main_v32_apply]
  refine congrArg₂ Ideal.div (Finset.sum_congr rfl fun s _ => ?_) rfl
  rw [Read.val_main_v31_apply, Read.val_main_v30_apply]
  refine congrArg₂ (· * ·) (congrArg₂ Ideal.div ?_ ?_) (congrArg x1 (funext fun a => Fin.ext (by match a with | ⟨0, _⟩ => rfl | ⟨1, _⟩ => rfl)))
  · exact (congrArg (Read.val_main_v24 (F := Ideal) x0 x1 x2 x3) (funext fun a => Fin.ext (by match a with | ⟨0, _⟩ => rfl | ⟨1, _⟩ => rfl))).trans
      (score1 x0 x1 x2 x3 p s)
  · exact (congrArg (Read.val_main_v29 (F := Ideal) x0 x1 x2 x3) (funext fun a => Fin.ext (by match a with | ⟨0, _⟩ => rfl | ⟨1, _⟩ => rfl))).trans
      (nrm1 x0 x1 x2 x3 p (0 : Fin 1))

theorem weight1 (x2 : (⟨S2x128x128, .f32⟩ : BufTy).Contents (Elt Ideal)) (k d : Fin 128) :
    Read.val_main_v37 (F := Ideal) x2 (ix2 k d) = x2 (ix3 (1 : Fin 2) d k) := by
  rw [Read.val_main_v37_apply, Read.val_main_v36_apply, Read.val_main_v35_apply]
  refine congrArg x2 (funext fun a => Fin.ext ?_)
  have hk := k.isLt
  have hd := d.isLt
  match a with
  | ⟨0, _⟩ => rfl
  | ⟨1, _⟩ => show (d.val * 128 + k.val) / 128 % 128 = d.val; omega
  | ⟨2, _⟩ => show (d.val * 128 + k.val) % 128 = k.val; omega

theorem bias1 (x3 : (⟨S2x128, .f32⟩ : BufTy).Contents (Elt Ideal)) (p : Fin 8192) (d : Fin 128) :
    Read.val_main_v43 (F := Ideal) x3 (ix2 p d) = x3 (ix2 (1 : Fin 2) d) := by
  rw [Read.val_main_v43_apply, Read.val_main_v42_apply, Read.val_main_v41_apply, Read.val_main_v40_apply]
  refine congrArg x3 (funext fun a => Fin.ext ?_)
  have hd := d.isLt
  match a with
  | ⟨0, _⟩ => rfl
  | ⟨1, _⟩ => exact Nat.mod_eq_of_lt hd

/-- Layer 1 of the reference at `(p, d)` is the row layer of row `p` of its input. -/
theorem layer1_apply (x0 : (⟨S8192x128, .f32⟩ : BufTy).Contents (Elt Ideal)) (x1 : (⟨S16384x128, .f32⟩ : BufTy).Contents (Elt Ideal)) (x2 : (⟨S2x128x128, .f32⟩ : BufTy).Contents (Elt Ideal)) (x3 : (⟨S2x128, .f32⟩ : BufTy).Contents (Elt Ideal)) (p : Fin 8192) (d : Fin 128) :
    Read.val_main_v45 (F := Ideal) x0 x1 x2 x3 (ix2 p d)
      = layer εw Sw zw (row1 x0 x1 x2 x3 p) (keys x1) (fun d k => x2 (ix3 (1 : Fin 2) d k)) (fun d => x3 (ix2 (1 : Fin 2) d)) d := by
  rw [Read.val_main_v45_apply, Read.val_main_call1_v0_apply, Read.val_main_v44_apply, Read.val_main_v39_apply, Read.val_main_v38_apply]
  unfold layer
  refine congrArg₂ max (congrArg₂ (· + ·) (congrArg₂ (· + ·) rfl (Finset.sum_congr rfl fun k _ => ?_)) (bias1 x3 p d)) rfl
  refine congrArg₂ (· * ·) ?_ ?_
  · exact (congrArg (Read.val_main_v34 (F := Ideal) x0 x1 x2 x3) (funext fun a => Fin.ext (by match a with | ⟨0, _⟩ => rfl | ⟨1, _⟩ => rfl))).trans
      (msg1 x0 x1 x2 x3 p k)
  · exact (congrArg (Read.val_main_v37 (F := Ideal) x2) (funext fun a => Fin.ext (by match a with | ⟨0, _⟩ => rfl | ⟨1, _⟩ => rfl))).trans
      (weight1 x2 k d)

end Cert.ReferenceIdeal.RefValue

end
-- ==== Proof.lean ====
/-
  The certificate of a two-layer attention network over users and keys, kernel against reference.

  Per layer, for a row `x` of the layer's input: the scores against the 16384 keys are `x · keyₛ`; they are divided
  by `max (∑ₛ |scoreₛ|) ε`; the message is the so-weighted sum of the keys divided by the number of keys; the row of the
  result is `relu (x + message · Wᵀ + b)`. The reference computes this with whole-array host operations. The kernel
  walks a 4 × 2 × 16 grid (user tile, layer, key tile): it keeps the layer's input in its resident output block,
  accumulates `∑ |score|` and `∑ score · key` over the key tiles in two scratch buffers, and at a layer's last key tile
  divides the accumulated sum by the clamped normaliser and finishes the layer into the output block.

  The frames (both kernel programs run to the end, fault nowhere, leave their arguments unchanged) are proved over the
  launch lemmas by running the body once for each of the four kinds of grid point (Kernel/…, KernelIdeal/…: Cases, the
  four runs, Body, Obligation). The reference's frame is its run. Nothing was rewritten by the idealization.
  For the values at the ideal instance: the kernel's result array is one function of the arguments
  (KernelIdeal/StepValues, Payloads, Stream, KernelValue), each layer of the reference read at an index is the same
  row layer (RefLayers), and the only difference of arrangement — dividing the scores by the normaliser before or
  after the sum over the keys — is no difference on the extended reals, because the normaliser is at least ε > 0
  (RowLayer, EpsPos). The precondition is never opened.
-/
import proofs.«111034_j90718299226373_2_alg».proof.Defs
import proofs.«111034_j90718299226373_2_alg».proof.Proof.Gen.Kernel
import proofs.«111034_j90718299226373_2_alg».proof.Proof.Gen.KernelIdeal
import proofs.«111034_j90718299226373_2_alg».proof.Proof.Gen.ReferenceIdeal
import proofs.«111034_j90718299226373_2_alg».proof.Proof.Gen.Pre_finite_inputs
import proofs.«111034_j90718299226373_2_alg».proof.Proof.Gen.ReferenceIdeal.Run
import proofs.«111034_j90718299226373_2_alg».proof.Proof.Gen.ReferenceIdeal.Read
import proofs.«111034_j90718299226373_2_alg».proof.Proof.Kernel.Obligation
import proofs.«111034_j90718299226373_2_alg».proof.Proof.KernelIdeal.KernelValue
import proofs.«111034_j90718299226373_2_alg».proof.Proof.RefLayers
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : Cert.frame_Kernel (hKernel := Cert.Kernel.Gen.facts) (hPre_finite_inputs := Cert.Pre_finite_inputs.Gen.facts) :=
  fun m ρ _ => Cert.Kernel.Body.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Body.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

/-- The reference's result, at `(p, d)`, is the kernel's result row: the row layer of the row layer of the user's row. -/
theorem result_eq (m : (ℓ : Loc Cert.KernelIdeal.nD Cert.KernelIdeal.τ Cert.KernelIdeal.sig) → Buf (Elt Ideal) ℓ) (c : Dev Cert.KernelIdeal.nD)
    (p : Fin 8192) (d : Fin 128) :
    Cert.ReferenceIdeal.Read.val_main_v45 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) (ix2 p d)
      = Cert.KernelIdeal.Stream.rowOut m c p d := by
  rw [Cert.ReferenceIdeal.RefValue.layer1_apply]
  unfold Cert.KernelIdeal.Stream.rowOut
  refine congrArg (fun x => Cert.RowLayer.layer _ _ _ x _ _ _ d) (funext fun k => ?_)
  exact Cert.ReferenceIdeal.RefValue.layer0_apply _ _ _ _ p k

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Stream.G m c, Cert.KernelIdeal.Stream.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, (hagree c).1, (hagree c).2.1, (hagree c).2.2.1, (hagree c).2.2.2]
  funext i
  obtain ⟨p, d, rfl⟩ : ∃ (p : Fin 8192) (d : Fin 128), i = ix2 p d := ⟨i 0, i 1, eq_ix2 i⟩
  exact result_eq m c p d

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
